-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024 : Shape := ⟨2, ![8, 1024]⟩
abbrev S8x1024x1024 : Shape := ⟨3, ![8, 1024, 1024]⟩
abbrev S10x1 : Shape := ⟨2, ![10, 1]⟩
abbrev S10 : Shape := ⟨1, ![10]⟩
abbrev S10x10 : Shape := ⟨2, ![10, 10]⟩
abbrev S1x20 : Shape := ⟨2, ![1, 20]⟩
abbrev S1 : Shape := ⟨1, ![1]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S10x1 : S_.BroadcastsInDim S10x1 (![] : Fin 0 → Fin S10x1.rank)
  reducesTo_S10x1_S_d0_1 : S10x1.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S10 .f32) (main_arg15 : FVec F S10x10 .f32) (main_arg16 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S10x10 .f32 := Host.absf main_arg15
  let main_cst_28 : FVec F S_ .f32 := constant S_ .f32 0x7F800000#32
  let main_v75 : FVec F S10x10 .f32 := broadcastInDim S10x10 ![] bcast_S_S10x10 main_cst_28
  let main_v76 : IVec S10x10 1 := cmpf .olt main_v74 main_v75
  let main_c_29 : IVec S_ 1 := constantI S_ 1 1#1
  let main_v77 : IVec S_ 1 := (fun x v => Host.reduce IntOp.andi x v reducesTo_S10x10_S_d0_1 h_S_) main_v76 main_c_29
  let main_v78 : IVec S_ 1 := andi main_v73 main_v77
  let main_v79 : FVec F S10 .f32 := Host.absf main_arg16
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg11 : FVec F S1x20 .f32) (main_arg12 : FVec F S1 .f32) (main_arg13 : FVec F S10x10 .f32) (main_arg14 : FVec F S10 .f32) (main_arg15 : FVec F S10x10 .f32) (main_arg16 : FVec F S10 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S1x20 .f32 := Host.absf main_arg11
  let main_cst_20 : FVec F S_ .f32 := constant S_ .f32 0x7F800000#32
  let main_v55 : FVec F S1x20 .f32 := broadcastInDim S1x20 ![] bcast_S_S1x20 main_cst_20
  let main_v56 : IVec S1x20 1 := cmpf .olt main_v54 main_v55
  let main_c_21 : IVec S_ 1 := constantI S_ 1 1#1
  let main_v57 : IVec S_ 1 := (fun x v => Host.reduce IntOp.andi x v reducesTo_S1x20_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S10x10 .f32 := Host.absf main_arg13
  let main_cst_24 : FVec F S_ .f32 := constant S_ .f32 0x7F800000#32
  let main_v65 : FVec F S10x10 .f32 := broadcastInDim S10x10 ![] bcast_S_S10x10 main_cst_24
  let main_v66 : IVec S10x10 1 := cmpf .olt main_v64 main_v65
  let main_c_25 : IVec S_ 1 := constantI S_ 1 1#1
  let main_v67 : IVec S_ 1 := (fun x v => Host.reduce IntOp.andi x v reducesTo_S10x10_S_d0_1 h_S_) main_v66 main_c_25
  fn_part4 (F := F) main_arg14 main_arg15 main_arg16 main_v63 main_v67

def fn_part2 {F : FTy → Type} [FloatOps F] (main_arg7 : FVec F S10x10 .f32) (main_arg8 : FVec F S10 .f32) (main_arg9 : FVec F S10x1 .f32) (main_arg10 : FVec F S10 .f32) (main_arg11 : FVec F S1x20 .f32) (main_arg12 : FVec F S1 .f32) (main_arg13 : FVec F S10x10 .f32) (main_arg14 : FVec F S10 .f32) (main_arg15 : FVec F S10x10 .f32) (main_arg16 : FVec F S10 .f32) (main_v33 : IVec S_ 1) : IVec S_ 1 :=
  let main_v34 : FVec F S10x10 .f32 := Host.absf main_arg7
  let main_cst_12 : FVec F S_ .f32 := constant S_ .f32 0x7F800000#32
  let main_v35 : FVec F S10x10 .f32 := broadcastInDim S10x10 ![] bcast_S_S10x10 main_cst_12
  let main_v36 : IVec S10x10 1 := cmpf .olt main_v34 main_v35
  let main_c_13 : IVec S_ 1 := constantI S_ 1 1#1
  let main_v37 : IVec S_ 1 := (fun x v => Host.reduce IntOp.andi x v reducesTo_S10x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x1 .f32 := Host.absf main_arg9
  let main_cst_16 : FVec F S_ .f32 := constant S_ .f32 0x7F800000#32
  let main_v45 : FVec F S10x1 .f32 := broadcastInDim S10x1 ![] bcast_S_S10x1 main_cst_16
  let main_v46 : IVec S10x1 1 := cmpf .olt main_v44 main_v45
  let main_c_17 : IVec S_ 1 := constantI S_ 1 1#1
  let main_v47 : IVec S_ 1 := (fun x v => Host.reduce IntOp.andi x v reducesTo_S10x1_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_arg16 main_v48 main_v49 main_v50

def fn_part1 {F : FTy → Type} [FloatOps F] (main_arg4 : FVec F S10 .f32) (main_arg5 : FVec F S10x10 .f32) (main_arg6 : FVec F S10 .f32) (main_arg7 : FVec F S10x10 .f32) (main_arg8 : FVec F S10 .f32) (main_arg9 : FVec F S10x1 .f32) (main_arg10 : FVec F S10 .f32) (main_arg11 : FVec F S1x20 .f32) (main_arg12 : FVec F S1 .f32) (main_arg13 : FVec F S10x10 .f32) (main_arg14 : FVec F S10 .f32) (main_arg15 : FVec F S10x10 .f32) (main_arg16 : FVec F S10 .f32) (main_v13 : IVec S_ 1) (main_v16 : IVec S10x1 1) : IVec S_ 1 :=
  let main_c_5 : IVec S_ 1 := constantI S_ 1 1#1
  let main_v17 : IVec S_ 1 := (fun x v => Host.reduce IntOp.andi x v reducesTo_S10x1_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x10 .f32 := Host.absf main_arg5
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x1024 .f32) (main_arg1 : FVec F S8x1024x1024 .f32) (main_arg2 : FVec F S8x1024x1024 .f32) (main_arg3 : FVec F S10x1 .f32) (main_arg4 : FVec F S10 .f32) (main_arg5 : FVec F S10x10 .f32) (main_arg6 : FVec F S10 .f32) (main_arg7 : FVec F S10x10 .f32) (main_arg8 : FVec F S10 .f32) (main_arg9 : FVec F S10x1 .f32) (main_arg10 : FVec F S10 .f32) (main_arg11 : FVec F S1x20 .f32) (main_arg12 : FVec F S1 .f32) (main_arg13 : FVec F S10x10 .f32) (main_arg14 : FVec F S10 .f32) (main_arg15 : FVec F S10x10 .f32) (main_arg16 : FVec F S10 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S10x1 .f32 := Host.absf main_arg3
  let main_cst_4 : FVec F S_ .f32 := constant S_ .f32 0x7F800000#32
  let main_v15 : FVec F S10x1 .f32 := broadcastInDim S10x1 ![] bcast_S_S10x1 main_cst_4
  let main_v16 : IVec S10x1 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x1024 : Shape := ⟨2, ![8, 1024]⟩
abbrev S8x1024x1024 : Shape := ⟨3, ![8, 1024, 1024]⟩
abbrev S10x1 : Shape := ⟨2, ![10, 1]⟩
abbrev S10 : Shape := ⟨1, ![10]⟩
abbrev S10x10 : Shape := ⟨2, ![10, 10]⟩
abbrev S1x20 : Shape := ⟨2, ![1, 20]⟩
abbrev S1 : Shape := ⟨1, ![1]⟩
abbrev S8x1024x1 : Shape := ⟨3, ![8, 1024, 1]⟩
abbrev S8x1024x10 : Shape := ⟨3, ![8, 1024, 10]⟩
abbrev S1x1024x1 : Shape := ⟨3, ![1, 1024, 1]⟩
abbrev S1x1024x1024 : Shape := ⟨3, ![1, 1024, 1024]⟩
abbrev S1x1024x10 : Shape := ⟨3, ![1, 1024, 10]⟩
abbrev S1024x1 : Shape := ⟨2, ![1024, 1]⟩
abbrev S1024x1024 : Shape := ⟨2, ![1024, 1024]⟩
abbrev S1x10 : Shape := ⟨2, ![1, 10]⟩
abbrev S1024x10 : Shape := ⟨2, ![1024, 10]⟩
abbrev S1x1 : Shape := ⟨2, ![1, 1]⟩
abbrev S1024 : Shape := ⟨1, ![1024]⟩
abbrev S1024x20 : Shape := ⟨2, ![1024, 20]⟩
abbrev S20x1 : Shape := ⟨2, ![20, 1]⟩

abbrev nBuf : Space → Nat
  | .hbm => 21
  | .vmem => 24
  | .smem => 0
  | _ => 0

abbrev bufTy : (tb : Table) → Fin (tcTables nBuf tb) → BufTy
  | .hbm, ⟨0, _⟩ => ⟨S8x1024, .f32⟩
  | .hbm, ⟨1, _⟩ => ⟨S8x1024x1024, .f32⟩
  | .hbm, ⟨2, _⟩ => ⟨S8x1024x1024, .f32⟩
  | .hbm, ⟨3, _⟩ => ⟨S10x1, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x1, .f32⟩
  | .hbm, ⟨10, _⟩ => ⟨S10, .f32⟩
  | .hbm, ⟨11, _⟩ => ⟨S1x20, .f32⟩
  | .hbm, ⟨12, _⟩ => ⟨S1, .f32⟩
  | .hbm, ⟨13, _⟩ => ⟨S10x10, .f32⟩
  | .hbm, ⟨14, _⟩ => ⟨S10, .f32⟩
  | .hbm, ⟨15, _⟩ => ⟨S10x10, .f32⟩
  | .hbm, ⟨16, _⟩ => ⟨S10, .f32⟩
  | .hbm, ⟨17, _⟩ => ⟨S8x1024x1, .f32⟩
  | .hbm, ⟨18, _⟩ => ⟨S8x1024x1, .f32⟩
  | .hbm, ⟨19, _⟩ => ⟨S8x1024x10, .f32⟩
  | .hbm, ⟨20, _⟩ => ⟨S8x1024, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S10x1, .f32⟩
  | .local _ .vmem, ⟨7, _⟩ => ⟨S10, .f32⟩
  | .local _ .vmem, ⟨8, _⟩ => ⟨S10x10, .f32⟩
  | .local _ .vmem, ⟨9, _⟩ => ⟨S10, .f32⟩
  | .local _ .vmem, ⟨10, _⟩ => ⟨S10x10, .f32⟩
  | .local _ .vmem, ⟨11, _⟩ => ⟨S10, .f32⟩
  | .local _ .vmem, ⟨12, _⟩ => ⟨S10x1, .f32⟩
  | .local _ .vmem, ⟨13, _⟩ => ⟨S10, .f32⟩
  | .local _ .vmem, ⟨14, _⟩ => ⟨S1x20, .f32⟩
  | .local _ .vmem, ⟨15, _⟩ => ⟨S1, .f32⟩
  | .local _ .vmem, ⟨16, _⟩ => ⟨S10x10, .f32⟩
  | .local _ .vmem, ⟨17, _⟩ => ⟨S10, .f32⟩
  | .local _ .vmem, ⟨18, _⟩ => ⟨S10x10, .f32⟩
  | .local _ .vmem, ⟨19, _⟩ => ⟨S10, .f32⟩
  | .local _ .vmem, ⟨20, _⟩ => ⟨S1x1024x1, .f32⟩
  | .local _ .vmem, ⟨21, _⟩ => ⟨S1x1024x1, .f32⟩
  | .local _ .vmem, ⟨22, _⟩ => ⟨S1x1024x10, .f32⟩
  | .local _ .vmem, ⟨23, _⟩ => ⟨S1x1024x10, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1_0 : Ref sig .tc := ⟨.hbm, 18, rfl⟩
abbrev main_v1_1 : Ref sig .tc := ⟨.hbm, 19, rfl⟩
abbrev main_v2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S10x10 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S10 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1024x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1024x10 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bcast_S8x1024_S8x1024x1_0_1 : S8x1024.BroadcastsInDim S8x1024x1 (![0, 1] : Fin 2 → Fin S8x1024x1.rank)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S10x1_S10x1_0_0 : ∀ a, (![0, 0] : Fin 2 → Nat) a + S10x1.size a ≤ S10x1.size a
  h_S10x1 : 0 < S10x1.numel
  inb_S10_S10_0 : ∀ a, (![0] : Fin 1 → Nat) a + S10.size a ≤ S10.size a
  h_S10 : 0 < S10.numel
  inb_S10x10_S10x10_0_0 : ∀ a, (![0, 0] : Fin 2 → Nat) a + S10x10.size a ≤ S10x10.size a
  h_S10x10 : 0 < S10x10.numel
  inb_S1x20_S1x20_0_0 : ∀ a, (![0, 0] : Fin 2 → Nat) a + S1x20.size a ≤ S1x20.size a
  h_S1x20 : 0 < S1x20.numel
  inb_S1_S1_0 : ∀ a, (![0] : Fin 1 → Nat) a + S1.size a ≤ S1.size a
  h_S1 : 0 < S1.numel
  shapeCasts_S10x1_S10 : S10x1.ShapeCasts S10
  shapeCasts_S10_S1x10 : S10.ShapeCasts S1x10
  broadcasts_S1024x1_S1024x10 : S1024x1.Broadcasts S1024x10
  broadcasts_S1x10_S1024x10 : S1x10.Broadcasts S1024x10
  slices_S10x1_o0_0_S1x1 : S10x1.Slices ![0, 0] S1x1
  inpos_S1x1_p0_0 : ∀ a, (![0, 0] : Fin 2 → Nat) a < S1x1.size a
  slices_S10_o0_S1 : S10.Slices ![0] S1
  inpos_S1_p0 : ∀ a, (![0] : Fin 1 → Nat) a < S1.size a
  reduces_S1024x1024_S1024 : S1024x1024.Reduces [0] S1024
  slices_S10x1_o1_0_S1x1 : S10x1.Slices ![1, 0] S1x1
  slices_S10_o1_S1 : S10.Slices ![1] S1
  slices_S10x1_o2_0_S1x1 : S10x1.Slices ![2, 0] S1x1
  slices_S10_o2_S1 : S10.Slices ![2] S1
  slices_S10x1_o3_0_S1x1 : S10x1.Slices ![3, 0] S1x1
  slices_S10_o3_S1 : S10.Slices ![3] S1
  slices_S10x1_o4_0_S1x1 : S10x1.Slices ![4, 0] S1x1
  slices_S10_o4_S1 : S10.Slices ![4] S1
  slices_S10x1_o5_0_S1x1 : S10x1.Slices ![5, 0] S1x1
  slices_S10_o5_S1 : S10.Slices ![5] S1
  slices_S10x1_o6_0_S1x1 : S10x1.Slices ![6, 0] S1x1
  slices_S10_o6_S1 : S10.Slices ![6] S1
  slices_S10x1_o7_0_S1x1 : S10x1.Slices ![7, 0] S1x1
  slices_S10_o7_S1 : S10.Slices ![7] S1
  slices_S10x1_o8_0_S1x1 : S10x1.Slices ![8, 0] S1x1
  slices_S10_o8_S1 : S10.Slices ![8] S1
  slices_S10x1_o9_0_S1x1 : S10x1.Slices ![9, 0] S1x1
  slices_S10_o9_S1 : S10.Slices ![9] S1
  shapeCasts_S1024_S1024x1 : S1024.ShapeCasts S1024x1
  concatenates_S1024x1_S1024x1_S1024x1_S1024x1_S1024x1_S1024x1_S1024x1_S1024x1_S1024x1_S1024x1_S1024x10_d1 : Shape.Concatenates [S1024x1, S1024x1, S1024x1, S1024x1, S1024x1, S1024x1, S1024x1, S1024x1, S1024x1, S1024x1] S1024x10 1
  transposes_S10x10_p1_0_S10x10 : S10x10.Transposes [1, 0] S10x10
  bitsLt_bf16_f32 : FTy.bits .bf16 < FTy.bits .f32
  reduces_S1024x10_S10 : S1024x10.Reduces [0] S10
  shapeCasts_S1x10_S10 : S1x10.ShapeCasts S10
  shapeCasts_S1x10_S1x10 : S1x10.ShapeCasts S1x10
  concatenates_S1024x10_S1024x10_S1024x20_d1 : Shape.Concatenates [S1024x10, S1024x10] S1024x20 1
  transposes_S1x20_p1_0_S20x1 : S1x20.Transposes [1, 0] S20x1
  shapeCasts_S1_S1x1 : S1.ShapeCasts S1x1
  broadcasts_S1x1_S1024x1 : S1x1.Broadcasts S1024x1
  shapeCasts_S1024x1_S1x1024x1 : S1024x1.ShapeCasts S1x1024x1
  inb_S1x1024x10_S1x1024x10_0_0_0 : ∀ a, (![0, 0, 0] : Fin 3 → Nat) a + S1x1024x10.size a ≤ S1x1024x10.size a
  h_S1x1024x10 : 0 < S1x1024x10.numel
  shapeCasts_S1x1024x10_S1024x10 : S1x1024x10.ShapeCasts S1024x10
  shapeCasts_S1024x10_S1x1024x10 : S1024x10.ShapeCasts S1x1024x10
  shapeCasts_S8x1024x1_S8x1024 : S8x1024x1.ShapeCasts S8x1024
  dot_S1024x10_S10x10_S1024x10_1_0_0_1_n_n_wf : DotDims.WF S1024x10 S10x10 S1024x10 [1] [0] [0] [1] [] []
  dot_S1024x1024_S1024x10_S1024x10_1_0_0_1_n_n_wf : DotDims.WF S1024x1024 S1024x10 S1024x10 [1] [0] [0] [1] [] []
  dot_S1x10_S10x10_S1x10_1_0_0_1_n_n_wf : DotDims.WF S1x10 S10x10 S1x10 [1] [0] [0] [1] [] []
  dot_S1024x20_S20x1_S1024x1_1_0_0_1_n_n_wf : DotDims.WF S1024x20 S20x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S8x1024x1.size a
  hwx0_0 : ∀ i : grid0.Coords, EltTy.bits .f32 = 32 ∨ (Rect.block (s := S8x1024x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .f32 = 32 ∨ (Rect.block (s := S8x1024x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x1.size a ≤ S10x1.size a
  hwx0_3 : ∀ i : grid0.Coords, EltTy.bits .f32 = 32 ∨ (Rect.block (s := S10x1) S10x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10.size a ≤ S10.size a
  hwx0_4 : ∀ i : grid0.Coords, EltTy.bits .f32 = 32 ∨ (Rect.block (s := S10) S10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .f32 = 32 ∨ (Rect.block (s := S10x10) S10x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x10.size a ≤ S10x10.size a
  hwx0_7 : ∀ i : grid0.Coords, EltTy.bits .f32 = 32 ∨ (Rect.block (s := S10x10) S10x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10.size a ≤ S10.size a
  hwx0_8 : ∀ i : grid0.Coords, EltTy.bits .f32 = 32 ∨ (Rect.block (s := S10) S10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x1.size a ≤ S10x1.size a
  hwx0_9 : ∀ i : grid0.Coords, EltTy.bits .f32 = 32 ∨ (Rect.block (s := S10x1) S10x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10.size a ≤ S10.size a
  hwx0_10 : ∀ i : grid0.Coords, EltTy.bits .f32 = 32 ∨ (Rect.block (s := S10) S10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x20.size a ≤ S1x20.size a
  hwx0_11 : ∀ i : grid0.Coords, EltTy.bits .f32 = 32 ∨ (Rect.block (s := S1x20) S1x20.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10x10.size a ≤ S10x10.size a
  hwx0_13 : ∀ i : grid0.Coords, EltTy.bits .f32 = 32 ∨ (Rect.block (s := S10x10) S10x10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S10.size a ≤ S10.size a
  hwx0_14 : ∀ i : grid0.Coords, EltTy.bits .f32 = 32 ∨ (Rect.block (s := S10) S10.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S10x10.size a ≤ S10x10.size a
  hwx0_15 : ∀ i : grid0.Coords, EltTy.bits .f32 = 32 ∨ (Rect.block (s := S10x10) S10x10.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S10.size a ≤ S10.size a
  hwx0_16 : ∀ i : grid0.Coords, EltTy.bits .f32 = 32 ∨ (Rect.block (s := S10) S10.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x1024x1.size a ≤ S8x1024x1.size a
  hwx0_17 : ∀ i : grid0.Coords, EltTy.bits .f32 = 32 ∨ (Rect.block (s := S8x1024x1) S1x1024x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x1024x10.size a ≤ S8x1024x10.size a
  hwx0_18 : ∀ i : grid0.Coords, EltTy.bits .f32 = 32 ∨ (Rect.block (s := S8x1024x10) S1x1024x10.size (cc0_transform_18 i) (hinb0_18 i)).WholeWords (EltTy.packing .f32)

variable [Facts₀]

def dot_S1024x10_S10x10_S1024x10_1_0_0_1_n_n : DotDims S1024x10 S10x10 S1024x10 where
  lhsContracting := [1]
  rhsContracting := [0]
  lhsNonContracting := [0]
  rhsNonContracting := [1]
  lhsBatch := []
  rhsBatch := []
  wf := dot_S1024x10_S10x10_S1024x10_1_0_0_1_n_n_wf
def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf
def dot_S1x10_S10x10_S1x10_1_0_0_1_n_n : DotDims S1x10 S10x10 S1x10 where
  lhsContracting := [1]
  rhsContracting := [0]
  lhsNonContracting := [0]
  rhsNonContracting := [1]
  lhsBatch := []
  rhsBatch := []
  wf := dot_S1x10_S10x10_S1x10_1_0_0_1_n_n_wf
def dot_S1024x20_S20x1_S1024x1_1_0_0_1_n_n : DotDims S1024x20 S20x1 S1024x1 where
  lhsContracting := [1]
  rhsContracting := [0]
  lhsNonContracting := [0]
  rhsNonContracting := [1]
  lhsBatch := []
  rhsBatch := []
  wf := dot_S1024x20_S20x1_S1024x1_1_0_0_1_n_n_wf

abbrev win0_0 : Pipeline.Window sig grid0 :=
  Pipeline.Window.ofSpec (Memref.whole main_v0) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S10x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x20.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S10x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S10x10.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S10.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v1_0) S1x1024x1.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v1_1) S1x1024x10.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S8x1024 : Shape := ⟨2, ![8, 1024]⟩
abbrev S8x1024x1024 : Shape := ⟨3, ![8, 1024, 1024]⟩
abbrev S10x1 : Shape := ⟨2, ![10, 1]⟩
abbrev S10 : Shape := ⟨1, ![10]⟩
abbrev S10x10 : Shape := ⟨2, ![10, 10]⟩
abbrev S1x20 : Shape := ⟨2, ![1, 20]⟩
abbrev S1 : Shape := ⟨1, ![1]⟩
abbrev S8x1024x1 : Shape := ⟨3, ![8, 1024, 1]⟩
abbrev S1x1x10 : Shape := ⟨3, ![1, 1, 10]⟩
abbrev S8x1024x10 : Shape := ⟨3, ![8, 1024, 10]⟩
abbrev S8x1024x1024x1 : Shape := ⟨4, ![8, 1024, 1024, 1]⟩
abbrev S1x1x1x10 : Shape := ⟨4, ![1, 1, 1, 10]⟩
abbrev S8x1024x1024x10 : Shape := ⟨4, ![8, 1024, 1024, 10]⟩
abbrev S_ : Shape := ⟨0, ![]⟩
abbrev S8x10 : Shape := ⟨2, ![8, 10]⟩
abbrev S1x10 : Shape := ⟨2, ![1, 10]⟩
abbrev S8x1x10 : Shape := ⟨3, ![8, 1, 10]⟩
abbrev S8x1024x20 : Shape := ⟨3, ![8, 1024, 20]⟩
abbrev S1x1x1 : Shape := ⟨3, ![1, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024x1024, .f32⟩
  | .hbm, ⟨2, _⟩ => ⟨S8x1024x1024, .f32⟩
  | .hbm, ⟨3, _⟩ => ⟨S10x1, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x1, .f32⟩
  | .hbm, ⟨10, _⟩ => ⟨S10, .f32⟩
  | .hbm, ⟨11, _⟩ => ⟨S1x20, .f32⟩
  | .hbm, ⟨12, _⟩ => ⟨S1, .f32⟩
  | .hbm, ⟨13, _⟩ => ⟨S10x10, .f32⟩
  | .hbm, ⟨14, _⟩ => ⟨S10, .f32⟩
  | .hbm, ⟨15, _⟩ => ⟨S10x10, .f32⟩
  | .hbm, ⟨16, _⟩ => ⟨S10, .f32⟩
  | .hbm, ⟨17, _⟩ => ⟨S8x1024x1, .f32⟩
  | .hbm, ⟨18, _⟩ => ⟨S10, .f32⟩
  | .hbm, ⟨19, _⟩ => ⟨S1x1x10, .f32⟩
  | .hbm, ⟨20, _⟩ => ⟨S8x1024x10, .f32⟩
  | .hbm, ⟨21, _⟩ => ⟨S8x1024x10, .f32⟩
  | .hbm, ⟨22, _⟩ => ⟨S8x1024x10, .f32⟩
  | .hbm, ⟨23, _⟩ => ⟨S1x1x10, .f32⟩
  | .hbm, ⟨24, _⟩ => ⟨S8x1024x10, .f32⟩
  | .hbm, ⟨25, _⟩ => ⟨S8x1024x10, .f32⟩
  | .hbm, ⟨26, _⟩ => ⟨S8x1024x1024x1, .f32⟩
  | .hbm, ⟨27, _⟩ => ⟨S10, .f32⟩
  | .hbm, ⟨28, _⟩ => ⟨S1x1x1x10, .f32⟩
  | .hbm, ⟨29, _⟩ => ⟨S8x1024x1024x10, .f32⟩
  | .hbm, ⟨30, _⟩ => ⟨S8x1024x1024x10, .f32⟩
  | .hbm, ⟨31, _⟩ => ⟨S8x1024x1024x10, .f32⟩
  | .hbm, ⟨32, _⟩ => ⟨S1x1x1x10, .f32⟩
  | .hbm, ⟨33, _⟩ => ⟨S8x1024x1024x10, .f32⟩
  | .hbm, ⟨34, _⟩ => ⟨S8x1024x1024x10, .f32⟩
  | .hbm, ⟨35, _⟩ => ⟨S_, .f32⟩
  | .hbm, ⟨36, _⟩ => ⟨S8x1024x1024x10, .f32⟩
  | .hbm, ⟨37, _⟩ => ⟨S8x1024x1024x10, .f32⟩
  | .hbm, ⟨38, _⟩ => ⟨S_, .f32⟩
  | .hbm, ⟨39, _⟩ => ⟨S8x1024x10, .f32⟩
  | .hbm, ⟨40, _⟩ => ⟨S8x1024x10, .f32⟩
  | .hbm, ⟨41, _⟩ => ⟨S1x1x10, .f32⟩
  | .hbm, ⟨42, _⟩ => ⟨S8x1024x10, .f32⟩
  | .hbm, ⟨43, _⟩ => ⟨S8x1024x10, .f32⟩
  | .hbm, ⟨44, _⟩ => ⟨S8x1024x10, .f32⟩
  | .hbm, ⟨45, _⟩ => ⟨S_, .f32⟩
  | .hbm, ⟨46, _⟩ => ⟨S8x1024x10, .f32⟩
  | .hbm, ⟨47, _⟩ => ⟨S8x1024x10, .f32⟩
  | .hbm, ⟨48, _⟩ => ⟨S8x1024x10, .f32⟩
  | .hbm, ⟨49, _⟩ => ⟨S1x1x10, .f32⟩
  | .hbm, ⟨50, _⟩ => ⟨S8x1024x10, .f32⟩
  | .hbm, ⟨51, _⟩ => ⟨S8x1024x10, .f32⟩
  | .hbm, ⟨52, _⟩ => ⟨S8x1024x10, .f32⟩
  | .hbm, ⟨53, _⟩ => ⟨S_, .f32⟩
  | .hbm, ⟨54, _⟩ => ⟨S8x1024x10, .f32⟩
  | .hbm, ⟨55, _⟩ => ⟨S8x1024x10, .f32⟩
  | .hbm, ⟨56, _⟩ => ⟨S8x1024x10, .f32⟩
  | .hbm, ⟨57, _⟩ => ⟨S8x1024x10, .f32⟩
  | .hbm, ⟨58, _⟩ => ⟨S1x1x10, .f32⟩
  | .hbm, ⟨59, _⟩ => ⟨S8x1024x10, .f32⟩
  | .hbm, ⟨60, _⟩ => ⟨S8x1024x10, .f32⟩
  | .hbm, ⟨61, _⟩ => ⟨S8x1024x10, .f32⟩
  | .hbm, ⟨62, _⟩ => ⟨S_, .f32⟩
  | .hbm, ⟨63, _⟩ => ⟨S8x1024x10, .f32⟩
  | .hbm, ⟨64, _⟩ => ⟨S8x1024x10, .f32⟩
  | .hbm, ⟨65, _⟩ => ⟨S8x1024x10, .f32⟩
  | .hbm, ⟨66, _⟩ => ⟨S8x1024x10, .f32⟩
  | .hbm, ⟨67, _⟩ => ⟨S1x1x10, .f32⟩
  | .hbm, ⟨68, _⟩ => ⟨S8x1024x10, .f32⟩
  | .hbm, ⟨69, _⟩ => ⟨S8x1024x10, .f32⟩
  | .hbm, ⟨70, _⟩ => ⟨S8x1024x10, .f32⟩
  | .hbm, ⟨71, _⟩ => ⟨S_, .f32⟩
  | .hbm, ⟨72, _⟩ => ⟨S8x1024x10, .f32⟩
  | .hbm, ⟨73, _⟩ => ⟨S8x1024x10, .f32⟩
  | .hbm, ⟨74, _⟩ => ⟨S_, .f32⟩
  | .hbm, ⟨75, _⟩ => ⟨S8x10, .f32⟩
  | .hbm, ⟨76, _⟩ => ⟨S8x10, .f32⟩
  | .hbm, ⟨77, _⟩ => ⟨S1x10, .f32⟩
  | .hbm, ⟨78, _⟩ => ⟨S8x10, .f32⟩
  | .hbm, ⟨79, _⟩ => ⟨S8x10, .f32⟩
  | .hbm, ⟨80, _⟩ => ⟨S8x1024x10, .f32⟩
  | .hbm, ⟨81, _⟩ => ⟨S1x1x10, .f32⟩
  | .hbm, ⟨82, _⟩ => ⟨S8x1024x10, .f32⟩
  | .hbm, ⟨83, _⟩ => ⟨S8x1024x10, .f32⟩
  | .hbm, ⟨84, _⟩ => ⟨S8x1x10, .f32⟩
  | .hbm, ⟨85, _⟩ => ⟨S8x1024x10, .f32⟩
  | .hbm, ⟨86, _⟩ => ⟨S8x1024x20, .f32⟩
  | .hbm, ⟨87, _⟩ => ⟨S8x1024x1, .f32⟩
  | .hbm, ⟨88, _⟩ => ⟨S1x1x1, .f32⟩
  | .hbm, ⟨89, _⟩ => ⟨S8x1024x1, .f32⟩
  | .hbm, ⟨90, _⟩ => ⟨S8x1024x1, .f32⟩
  | .hbm, ⟨91, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_cst : Ref sig .tc := ⟨.hbm, 35, rfl⟩
abbrev main_call0_v0 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_cst : Ref sig .tc := ⟨.hbm, 53, rfl⟩
abbrev main_call1_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call3_cst : Ref sig .tc := ⟨.hbm, 71, rfl⟩
abbrev main_call3_v0 : Ref sig .tc := ⟨.hbm, 72, rfl⟩
abbrev main_v46 : Ref sig .tc := ⟨.hbm, 73, rfl⟩
abbrev main_cst_1 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  bcast_S8x1024_S8x1024x1_0_1 : S8x1024.BroadcastsInDim S8x1024x1 (![0, 1] : Fin 2 → Fin S8x1024x1.rank)
  shapeCasts_S10x1_S10 : S10x1.ShapeCasts S10
  bcast_S10_S1x1x10_2 : S10.BroadcastsInDim S1x1x10 (![2] : Fin 1 → Fin S1x1x10.rank)
  bcast_S8x1024x1_S8x1024x10_0_1_2 : S8x1024x1.BroadcastsInDim S8x1024x10 (![0, 1, 2] : Fin 3 → Fin S8x1024x10.rank)
  bcast_S1x1x10_S8x1024x10_0_1_2 : S1x1x10.BroadcastsInDim S8x1024x10 (![0, 1, 2] : Fin 3 → Fin S8x1024x10.rank)
  bcast_S8x1024x1024_S8x1024x1024x1_0_1_2 : S8x1024x1024.BroadcastsInDim S8x1024x1024x1 (![0, 1, 2] : Fin 3 → Fin S8x1024x1024x1.rank)
  bcast_S10_S1x1x1x10_3 : S10.BroadcastsInDim S1x1x1x10 (![3] : Fin 1 → Fin S1x1x1x10.rank)
  bcast_S8x1024x1024x1_S8x1024x1024x10_0_1_2_3 : S8x1024x1024x1.BroadcastsInDim S8x1024x1024x10 (![0, 1, 2, 3] : Fin 4 → Fin S8x1024x1024x10.rank)
  bcast_S1x1x1x10_S8x1024x1024x10_0_1_2_3 : S1x1x1x10.BroadcastsInDim S8x1024x1024x10 (![0, 1, 2, 3] : Fin 4 → Fin S8x1024x1024x10.rank)
  bcast_S_S8x1024x1024x10 : S_.BroadcastsInDim S8x1024x1024x10 (![] : Fin 0 → Fin S8x1024x1024x10.rank)
  reducesTo_S8x1024x1024x10_S8x1024x10_d1 : S8x1024x1024x10.ReducesTo [1] S8x1024x10
  h_S_ : 0 < S_.numel
  bcast_S_S8x1024x10 : S_.BroadcastsInDim S8x1024x10 (![] : Fin 0 → Fin S8x1024x10.rank)
  reducesTo_S8x1024x10_S8x10_d1 : S8x1024x10.ReducesTo [1] S8x10
  bcast_S10_S1x10_1 : S10.BroadcastsInDim S1x10 (![1] : Fin 1 → Fin S1x10.rank)
  bcast_S1x10_S8x10_0_1 : S1x10.BroadcastsInDim S8x10 (![0, 1] : Fin 2 → Fin S8x10.rank)
  bcast_S8x10_S8x1x10_0_2 : S8x10.BroadcastsInDim S8x1x10 (![0, 2] : Fin 2 → Fin S8x1x10.rank)
  bcast_S8x1x10_S8x1024x10_0_1_2 : S8x1x10.BroadcastsInDim S8x1024x10 (![0, 1, 2] : Fin 3 → Fin S8x1024x10.rank)
  concatenates_S8x1024x10_S8x1024x10_S8x1024x20_d2 : Shape.Concatenates [S8x1024x10, S8x1024x10] S8x1024x20 2
  bcast_S1_S1x1x1_2 : S1.BroadcastsInDim S1x1x1 (![2] : Fin 1 → Fin S1x1x1.rank)
  bcast_S1x1x1_S8x1024x1_0_1_2 : S1x1x1.BroadcastsInDim S8x1024x1 (![0, 1, 2] : Fin 3 → Fin S8x1024x1.rank)
  shapeCasts_S8x1024x1_S8x1024 : S8x1024x1.ShapeCasts S8x1024
  dot_S8x1024x10_S10x10_S8x1024x10_2_1_01_0_n_n_wf : DotDims.WF S8x1024x10 S10x10 S8x1024x10 [2] [1] [0, 1] [0] [] []
  dot_S8x1024x1024_S8x1024x10_S8x1024x10_2_1_1_2_0_0_wf : DotDims.WF S8x1024x1024 S8x1024x10 S8x1024x10 [2] [1] [1] [2] [0] [0]
  dot_S8x10_S10x10_S8x10_1_1_0_0_n_n_wf : DotDims.WF S8x10 S10x10 S8x10 [1] [1] [0] [0] [] []
  dot_S8x1024x20_S1x20_S8x1024x1_2_1_01_0_n_n_wf : DotDims.WF S8x1024x20 S1x20 S8x1024x1 [2] [1] [0, 1] [0] [] []

variable [Facts₀]

def dot_S8x1024x10_S10x10_S8x1024x10_2_1_01_0_n_n : DotDims S8x1024x10 S10x10 S8x1024x10 where
  lhsContracting := [2]
  rhsContracting := [1]
  lhsNonContracting := [0, 1]
  rhsNonContracting := [0]
  lhsBatch := []
  rhsBatch := []
  wf := dot_S8x1024x10_S10x10_S8x1024x10_2_1_01_0_n_n_wf
def dot_S8x1024x1024_S8x1024x10_S8x1024x10_2_1_1_2_0_0 : DotDims S8x1024x1024 S8x1024x10 S8x1024x10 where
  lhsContracting := [2]
  rhsContracting := [1]
  lhsNonContracting := [1]
  rhsNonContracting := [2]
  lhsBatch := [0]
  rhsBatch := [0]
  wf := dot_S8x1024x1024_S8x1024x10_S8x1024x10_2_1_1_2_0_0_wf
def dot_S8x10_S10x10_S8x10_1_1_0_0_n_n : DotDims S8x10 S10x10 S8x10 where
  lhsContracting := [1]
  rhsContracting := [1]
  lhsNonContracting := [0]
  rhsNonContracting := [0]
  lhsBatch := []
  rhsBatch := []
  wf := dot_S8x10_S10x10_S8x10_1_1_0_0_n_n_wf
def dot_S8x1024x20_S1x20_S8x1024x1_2_1_01_0_n_n : DotDims S8x1024x20 S1x20 S8x1024x1 where
  lhsContracting := [2]
  rhsContracting := [1]
  lhsNonContracting := [0, 1]
  rhsNonContracting := [0]
  lhsBatch := []
  rhsBatch := []
  wf := dot_S8x1024x20_S1x20_S8x1024x1_2_1_01_0_n_n_wf

class Facts : Prop extends Facts₀ where

variable [Facts]
-- ==== Proof.Spec.lean ====
/-
  The graph network that both programs compute, written once for ONE graph as functions of indices over the
  extended reals.

  A graph has 1024 nodes. `x n` is node `n`'s feature, `W i j` the weight and `A i j` the adjacency entry of the
  ordered pair `(i, j)`. Every node carries an embedding of 10 channels.

  * `sel`: the feature's affine image, `x n * sw e + sb e`.
  * `edge`: for node `j` and channel `e`, the sum over source nodes `i` of `max (W i j * ew e + eb e) 0`.
  * `lin`: an affine map of a node's 10 channels, `(∑ e, P n e * w o e) + b o` (the matrix is applied transposed).
  * `base = sel + lin edge`: the part of the update that does not depend on the embedding.
  * `prop`: one propagation along the adjacency, `∑ j, A i j * E j e`.
  * `step E = max (base + lin (prop A E)) 0`, and the embedding `emb` is three steps from zero.
  * The readout: `pool` is the affine image of the embedding summed over the nodes (one row for the whole
    graph), `cat` joins it with each node's own affine image into 20 channels, and `q` contracts those 20
    channels with one row of weights and adds a bias.

  Sums are over `Fin` types of literal size; nothing here is distributed or cancelled, so the definitions make
  sense (and are used) at every extended real, the infinities included.
-/
import Idealize.ShloMosaic.PureOps.Ideal
import Idealize.ShloMosaic.Lib.ValueIdx

noncomputable section

namespace Cert.Gnn

open Idealize.ShloMosaic Idealize.ShloMosaic.ValueIdx

/-- An affine map of a node's 10 channels: row `o` of the matrix against the node's channels, plus the bias. -/
def lin (P : Fin 1024 → Fin 10 → EReal) (w : Fin 10 → Fin 10 → EReal) (b : Fin 10 → EReal)
    (n : Fin 1024) (o : Fin 10) : EReal :=
  (∑ e : Fin 10, P n e * w o e) + b o

/-- The feature's affine image. -/
def sel (x : Fin 1024 → EReal) (sw sb : Fin 10 → EReal) (n : Fin 1024) (e : Fin 10) : EReal :=
  x n * sw e + sb e

/-- The rectified affine image of the weights into node `j`, summed over the source nodes. -/
def edge (W : Fin 1024 → Fin 1024 → EReal) (ew eb : Fin 10 → EReal) (j : Fin 1024) (e : Fin 10) : EReal :=
  ∑ i : Fin 1024, max (W i j * ew e + eb e) 0

/-- The embedding-independent part of the update. -/
def base (x : Fin 1024 → EReal) (W : Fin 1024 → Fin 1024 → EReal) (sw sb ew eb : Fin 10 → EReal)
    (ww : Fin 10 → Fin 10 → EReal) (wb : Fin 10 → EReal) (n : Fin 1024) (o : Fin 10) : EReal :=
  sel x sw sb n o + lin (edge W ew eb) ww wb n o

/-- One propagation of an embedding along the adjacency. -/
def prop (A : Fin 1024 → Fin 1024 → EReal) (E : Fin 1024 → Fin 10 → EReal) (i : Fin 1024) (e : Fin 10) : EReal :=
  ∑ j : Fin 1024, A i j * E j e

/-- One update of the embedding. -/
def step (A : Fin 1024 → Fin 1024 → EReal) (B : Fin 1024 → Fin 10 → EReal) (pw : Fin 10 → Fin 10 → EReal)
    (pb : Fin 10 → EReal) (E : Fin 1024 → Fin 10 → EReal) (n : Fin 1024) (o : Fin 10) : EReal :=
  max (B n o + lin (prop A E) pw pb n o) 0

/-- The embedding: three updates from zero. -/
def emb (A : Fin 1024 → Fin 1024 → EReal) (B : Fin 1024 → Fin 10 → EReal) (pw : Fin 10 → Fin 10 → EReal)
    (pb : Fin 10 → EReal) : Fin 1024 → Fin 10 → EReal :=
  step A B pw pb (step A B pw pb (step A B pw pb fun _ _ => 0))

/-- The graph's pooled row: the affine image of the embedding summed over the nodes. -/
def pool (E : Fin 1024 → Fin 10 → EReal) (aw : Fin 10 → Fin 10 → EReal) (ab : Fin 10 → EReal) (o : Fin 10) : EReal :=
  (∑ e : Fin 10, (∑ n : Fin 1024, E n e) * aw o e) + ab o

/-- The 20 readout channels of node `n`: the pooled row, then the node's own affine image. -/
def cat (E : Fin 1024 → Fin 10 → EReal) (aw : Fin 10 → Fin 10 → EReal) (ab : Fin 10 → EReal)
    (cw : Fin 10 → Fin 10 → EReal) (cb : Fin 10 → EReal) (n : Fin 1024) (k : Fin 20) : EReal :=
  if h : k.val < 10 then pool E aw ab ⟨k.val, h⟩ else lin E cw cb n ⟨k.val - 10, by omega⟩

/-- The node's readout value. -/
def q (E : Fin 1024 → Fin 10 → EReal) (aw : Fin 10 → Fin 10 → EReal) (ab : Fin 10 → EReal)
    (cw : Fin 10 → Fin 10 → EReal) (cb : Fin 10 → EReal) (rw : Fin 20 → EReal) (rb : EReal) (n : Fin 1024) : EReal :=
  (∑ k : Fin 20, cat E aw ab cw cb n k * rw k) + rb

/-! ## The same over the parameter arrays

The eight small parameter arrays enter as arrays (a column `[10, 1]` is read at `(e, 0)`, a row `[1, 20]` at
`(0, k)`, a matrix `[10, 10]` at `(o, e)`); the graph's own data `x`, `W`, `A` stay functions of node indices, so the
same definitions serve a `[1, 1024, ·]` block of one graph and graph `b` of an `[8, 1024, ·]` array. The arrays
come in the order of the programs' arguments. -/

abbrev Col : Type := (⟨2, ![10, 1]⟩ : Shape).Idx → EReal
abbrev Vec10 : Type := (⟨1, ![10]⟩ : Shape).Idx → EReal
abbrev Mat : Type := (⟨2, ![10, 10]⟩ : Shape).Idx → EReal
abbrev Row20 : Type := (⟨2, ![1, 20]⟩ : Shape).Idx → EReal
abbrev Vec1 : Type := (⟨1, ![1]⟩ : Shape).Idx → EReal

/-- The embedding of one graph from its data and the parameter arrays
    (`a3 a4`: feature map; `a5 a6`: propagation map; `a7 a8`: edge-sum map; `a9 a10`: edge map). -/
def embOf (x : Fin 1024 → EReal) (W A : Fin 1024 → Fin 1024 → EReal) (a3 : Col) (a4 : Vec10) (a5 : Mat) (a6 : Vec10)
    (a7 : Mat) (a8 : Vec10) (a9 : Col) (a10 : Vec10) : Fin 1024 → Fin 10 → EReal :=
  emb A
    (base x W (fun e => a3 (ix2 e 0)) (fun e => a4 (ix1 e)) (fun e => a9 (ix2 e 0)) (fun e => a10 (ix1 e))
      (fun o e => a7 (ix2 o e)) (fun e => a8 (ix1 e)))
    (fun o e => a5 (ix2 o e)) (fun e => a6 (ix1 e))

/-- The readout of one graph (`a11 a12`: the final contraction; `a13 a14`: pooled map; `a15 a16`: per-node map). -/
def qOf (x : Fin 1024 → EReal) (W A : Fin 1024 → Fin 1024 → EReal) (a3 : Col) (a4 : Vec10) (a5 : Mat) (a6 : Vec10)
    (a7 : Mat) (a8 : Vec10) (a9 : Col) (a10 : Vec10) (a11 : Row20) (a12 : Vec1) (a13 : Mat) (a14 : Vec10)
    (a15 : Mat) (a16 : Vec10) : Fin 1024 → EReal :=
  q (embOf x W A a3 a4 a5 a6 a7 a8 a9 a10) (fun o e => a13 (ix2 o e)) (fun e => a14 (ix1 e))
    (fun o e => a15 (ix2 o e)) (fun e => a16 (ix1 e)) (fun k => a11 (ix2 0 k)) (a12 (ix1 0))

/-! ## The two result arrays of the whole batch of 8 graphs -/

/-- Graph `b`'s features, weights and adjacency out of the batch arrays. -/
abbrev feat (X : (⟨2, ![8, 1024]⟩ : Shape).Idx → EReal) (b : Fin 8) : Fin 1024 → EReal := fun n => X (ix2 b n)
abbrev pair (M : (⟨3, ![8, 1024, 1024]⟩ : Shape).Idx → EReal) (b : Fin 8) : Fin 1024 → Fin 1024 → EReal :=
  fun i j => M (ix3 b i j)

/-- The embeddings of all graphs, as one array. -/
def embArr (X : (⟨2, ![8, 1024]⟩ : Shape).Idx → EReal) (W A : (⟨3, ![8, 1024, 1024]⟩ : Shape).Idx → EReal)
    (a3 : Col) (a4 : Vec10) (a5 : Mat) (a6 : Vec10) (a7 : Mat) (a8 : Vec10) (a9 : Col) (a10 : Vec10) :
    (⟨3, ![8, 1024, 10]⟩ : Shape).Idx → EReal :=
  fun i => embOf (feat X (i 0)) (pair W (i 0)) (pair A (i 0)) a3 a4 a5 a6 a7 a8 a9 a10 (i 1) (i 2)

/-- The readout values of all graphs, as one array. -/
def qArr (X : (⟨2, ![8, 1024]⟩ : Shape).Idx → EReal) (W A : (⟨3, ![8, 1024, 1024]⟩ : Shape).Idx → EReal)
    (a3 : Col) (a4 : Vec10) (a5 : Mat) (a6 : Vec10) (a7 : Mat) (a8 : Vec10) (a9 : Col) (a10 : Vec10)
    (a11 : Row20) (a12 : Vec1) (a13 : Mat) (a14 : Vec10) (a15 : Mat) (a16 : Vec10) :
    (⟨2, ![8, 1024]⟩ : Shape).Idx → EReal :=
  fun i => qOf (feat X (i 0)) (pair W (i 0)) (pair A (i 0)) a3 a4 a5 a6 a7 a8 a9 a10 a11 a12 a13 a14 a15 a16 (i 1)

end Cert.Gnn

end
-- ==== Proof.KBlocks.lean ====
/-
  How the blocks that one grid point stages sit in the arrays.

  The grid has 8 points, one per graph. At point `t` the three per-graph windows (the features as an
  `[8, 1024, 1]` array, the weights and the adjacency as `[8, 1024, 1024]` arrays) stage the slab of graph `t`:
  block coordinate `(0, p, q)` is array coordinate `(t, p, q)`. The fourteen parameter windows have the constant
  block index zero and a block as large as the array, so their block is the whole array at every point. The two
  result windows write the slab of graph `t` back, and the 8 slabs cover the result arrays.
-/
import proofs.«129381_j87771951661882_1_alg».proof.Proof.Gen.KernelIdeal.Frame
import proofs.«129381_j87771951661882_1_alg».proof.Proof.Spec
import Idealize.ShloMosaic.Lib.Pipeline.Value
import Idealize.ShloMosaic.Lib.ValueIdx

noncomputable section

namespace Cert.KernelIdeal.Blocks

open Idealize.ShloMosaic Idealize.ShloMosaic.ValueIdx Idealize.SL.Sem Cert.KernelIdeal Cert.KernelIdeal.Gen

/-- The grid point as a graph number. -/
abbrev gb (t : Fin cfg0.N) : Fin 8 := ⟨t.val, by have h := t.isLt; have e : cfg0.N = 8 := N_0; omega⟩

/-- The per-graph windows' block index at point `t` is `(t, 0, 0)`: decided over the 8 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_17.index t (0 : Fin 3) = t.val ∧ win0_17.index t (1 : Fin 3) = 0 ∧ win0_17.index t (2 : Fin 3) = 0)
    ∧ (win0_18.index t (0 : Fin 3) = t.val ∧ win0_18.index t (1 : Fin 3) = 0 ∧ win0_18.index t (2 : Fin 3) = 0) :=
  (by decide +kernel : ∀ t : Fin grid0.N, _)

/-- The parameter windows' block index is zero at every point: decided over the 8 points. -/
theorem idx_const : ∀ t : Fin cfg0.N,
    (win0_3.index t (0 : Fin 2) = 0 ∧ win0_3.index t (1 : Fin 2) = 0)
    ∧ (win0_4.index t (0 : Fin 1) = 0)
    ∧ (win0_5.index t (0 : Fin 2) = 0 ∧ win0_5.index t (1 : Fin 2) = 0)
    ∧ (win0_6.index t (0 : Fin 1) = 0)
    ∧ (win0_7.index t (0 : Fin 2) = 0 ∧ win0_7.index t (1 : Fin 2) = 0)
    ∧ (win0_8.index t (0 : Fin 1) = 0)
    ∧ (win0_9.index t (0 : Fin 2) = 0 ∧ win0_9.index t (1 : Fin 2) = 0)
    ∧ (win0_10.index t (0 : Fin 1) = 0)
    ∧ (win0_11.index t (0 : Fin 2) = 0 ∧ win0_11.index t (1 : Fin 2) = 0)
    ∧ (win0_12.index t (0 : Fin 1) = 0)
    ∧ (win0_13.index t (0 : Fin 2) = 0 ∧ win0_13.index t (1 : Fin 2) = 0)
    ∧ (win0_14.index t (0 : Fin 1) = 0)
    ∧ (win0_15.index t (0 : Fin 2) = 0 ∧ win0_15.index t (1 : Fin 2) = 0)
    ∧ (win0_16.index t (0 : Fin 1) = 0) :=
  (by decide +kernel : ∀ t : Fin grid0.N, _)

/-! ## The per-graph input blocks -/

/-- The feature block of point `t` is graph `t`'s column of the `[8, 1024, 1]` array. -/
theorem read0 (A : S8x1024x1.Idx → EReal) (t : Fin cfg0.N) (n : Fin 1024) :
    ((cfg0.win 0).blk t).view.read (Elt Ideal) A (ix3 0 n 0) = A (ix3 (gb t) n 0) := by
  obtain ⟨⟨e0, e1, e2⟩, -⟩ := idx_facts t
  show A (((cfg0.win 0).blk t).view.emb (ix3 0 n 0)) = _
  refine congrArg A (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 1 + 1 * 0 = 0; omega

/-- The weight block of point `t` is graph `t`'s matrix. -/
theorem read1 (A : S8x1024x1024.Idx → EReal) (t : Fin cfg0.N) (p q : Fin 1024) :
    ((cfg0.win 1).blk t).view.read (Elt Ideal) A (ix3 0 p q) = A (ix3 (gb t) p q) := by
  obtain ⟨-, ⟨e0, e1, e2⟩, -⟩ := idx_facts t
  show A (((cfg0.win 1).blk t).view.emb (ix3 0 p q)) = _
  refine congrArg A (funext fun a => Fin.ext ?_)
  match a with
  | ⟨0, _⟩ => show win0_1.index t (0 : Fin 3) * 1 + 1 * 0 = t.val; omega
  | ⟨1, _⟩ => show win0_1.index t (1 : Fin 3) * 1024 + 1 * p.val = p.val; omega
  | ⟨2, _⟩ => show win0_1.index t (2 : Fin 3) * 1024 + 1 * q.val = q.val; omega

/-- The adjacency block of point `t` is graph `t`'s matrix. -/
theorem read2 (A : S8x1024x1024.Idx → EReal) (t : Fin cfg0.N) (p q : Fin 1024) :
    ((cfg0.win 2).blk t).view.read (Elt Ideal) A (ix3 0 p q) = A (ix3 (gb t) p q) := by
  obtain ⟨-, -, ⟨e0, e1, e2⟩, -⟩ := idx_facts t
  show A (((cfg0.win 2).blk t).view.emb (ix3 0 p q)) = _
  refine congrArg A (funext fun a => Fin.ext ?_)
  match a with
  | ⟨0, _⟩ => show win0_2.index t (0 : Fin 3) * 1 + 1 * 0 = t.val; omega
  | ⟨1, _⟩ => show win0_2.index t (1 : Fin 3) * 1024 + 1 * p.val = p.val; omega
  | ⟨2, _⟩ => show win0_2.index t (2 : Fin 3) * 1024 + 1 * q.val = q.val; omega

/-! ## The parameter blocks -/

/-- Window 3's block is its whole array at every point. -/
theorem read3 (A : S10x1.Idx → EReal) (t : Fin cfg0.N) :
    (((cfg0.win 3).blk t).view.read (Elt Ideal) A : S10x1.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 3).blk t).view.emb y) = A y
  refine congrArg A (funext fun a => Fin.ext ?_)
  match a with
  | ⟨0, _⟩ => show win0_3.index t (0 : Fin 2) * 10 + 1 * (y 0).val = (y 0).val; omega
  | ⟨1, _⟩ => show win0_3.index t (1 : Fin 2) * 1 + 1 * (y 1).val = (y 1).val; omega

/-- Window 4's block is its whole array at every point. -/
theorem read4 (A : S10.Idx → EReal) (t : Fin cfg0.N) :
    (((cfg0.win 4).blk t).view.read (Elt Ideal) A : S10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 4).blk t).view.emb y) = A y
  refine congrArg A (funext fun a => Fin.ext ?_)
  match a with
  | ⟨0, _⟩ => show win0_4.index t (0 : Fin 1) * 10 + 1 * (y 0).val = (y 0).val; omega

/-- Window 5's block is its whole array at every point. -/
theorem read5 (A : S10x10.Idx → EReal) (t : Fin cfg0.N) :
    (((cfg0.win 5).blk t).view.read (Elt Ideal) A : S10x10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 5).blk t).view.emb y) = A y
  refine congrArg A (funext fun a => Fin.ext ?_)
  match a with
  | ⟨0, _⟩ => show win0_5.index t (0 : Fin 2) * 10 + 1 * (y 0).val = (y 0).val; omega
  | ⟨1, _⟩ => show win0_5.index t (1 : Fin 2) * 10 + 1 * (y 1).val = (y 1).val; omega

/-- Window 6's block is its whole array at every point. -/
theorem read6 (A : S10.Idx → EReal) (t : Fin cfg0.N) :
    (((cfg0.win 6).blk t).view.read (Elt Ideal) A : S10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 6).blk t).view.emb y) = A y
  refine congrArg A (funext fun a => Fin.ext ?_)
  match a with
  | ⟨0, _⟩ => show win0_6.index t (0 : Fin 1) * 10 + 1 * (y 0).val = (y 0).val; omega

/-- Window 7's block is its whole array at every point. -/
theorem read7 (A : S10x10.Idx → EReal) (t : Fin cfg0.N) :
    (((cfg0.win 7).blk t).view.read (Elt Ideal) A : S10x10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 7).blk t).view.emb y) = A y
  refine congrArg A (funext fun a => Fin.ext ?_)
  match a with
  | ⟨0, _⟩ => show win0_7.index t (0 : Fin 2) * 10 + 1 * (y 0).val = (y 0).val; omega
  | ⟨1, _⟩ => show win0_7.index t (1 : Fin 2) * 10 + 1 * (y 1).val = (y 1).val; omega

/-- Window 8's block is its whole array at every point. -/
theorem read8 (A : S10.Idx → EReal) (t : Fin cfg0.N) :
    (((cfg0.win 8).blk t).view.read (Elt Ideal) A : S10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 8).blk t).view.emb y) = A y
  refine congrArg A (funext fun a => Fin.ext ?_)
  match a with
  | ⟨0, _⟩ => show win0_8.index t (0 : Fin 1) * 10 + 1 * (y 0).val = (y 0).val; omega

/-- Window 9's block is its whole array at every point. -/
theorem read9 (A : S10x1.Idx → EReal) (t : Fin cfg0.N) :
    (((cfg0.win 9).blk t).view.read (Elt Ideal) A : S10x1.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 9).blk t).view.emb y) = A y
  refine congrArg A (funext fun a => Fin.ext ?_)
  match a with
  | ⟨0, _⟩ => show win0_9.index t (0 : Fin 2) * 10 + 1 * (y 0).val = (y 0).val; omega
  | ⟨1, _⟩ => show win0_9.index t (1 : Fin 2) * 1 + 1 * (y 1).val = (y 1).val; omega

/-- Window 10's block is its whole array at every point. -/
theorem read10 (A : S10.Idx → EReal) (t : Fin cfg0.N) :
    (((cfg0.win 10).blk t).view.read (Elt Ideal) A : S10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 10).blk t).view.emb y) = A y
  refine congrArg A (funext fun a => Fin.ext ?_)
  match a with
  | ⟨0, _⟩ => show win0_10.index t (0 : Fin 1) * 10 + 1 * (y 0).val = (y 0).val; omega

/-- Window 11's block is its whole array at every point. -/
theorem read11 (A : S1x20.Idx → EReal) (t : Fin cfg0.N) :
    (((cfg0.win 11).blk t).view.read (Elt Ideal) A : S1x20.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 11).blk t).view.emb y) = A y
  refine congrArg A (funext fun a => Fin.ext ?_)
  match a with
  | ⟨0, _⟩ => show win0_11.index t (0 : Fin 2) * 1 + 1 * (y 0).val = (y 0).val; omega
  | ⟨1, _⟩ => show win0_11.index t (1 : Fin 2) * 20 + 1 * (y 1).val = (y 1).val; omega

/-- Window 12's block is its whole array at every point. -/
theorem read12 (A : S1.Idx → EReal) (t : Fin cfg0.N) :
    (((cfg0.win 12).blk t).view.read (Elt Ideal) A : S1.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 12).blk t).view.emb y) = A y
  refine congrArg A (funext fun a => Fin.ext ?_)
  match a with
  | ⟨0, _⟩ => show win0_12.index t (0 : Fin 1) * 1 + 1 * (y 0).val = (y 0).val; omega

/-- Window 13's block is its whole array at every point. -/
theorem read13 (A : S10x10.Idx → EReal) (t : Fin cfg0.N) :
    (((cfg0.win 13).blk t).view.read (Elt Ideal) A : S10x10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 13).blk t).view.emb y) = A y
  refine congrArg A (funext fun a => Fin.ext ?_)
  match a with
  | ⟨0, _⟩ => show win0_13.index t (0 : Fin 2) * 10 + 1 * (y 0).val = (y 0).val; omega
  | ⟨1, _⟩ => show win0_13.index t (1 : Fin 2) * 10 + 1 * (y 1).val = (y 1).val; omega

/-- Window 14's block is its whole array at every point. -/
theorem read14 (A : S10.Idx → EReal) (t : Fin cfg0.N) :
    (((cfg0.win 14).blk t).view.read (Elt Ideal) A : S10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 14).blk t).view.emb y) = A y
  refine congrArg A (funext fun a => Fin.ext ?_)
  match a with
  | ⟨0, _⟩ => show win0_14.index t (0 : Fin 1) * 10 + 1 * (y 0).val = (y 0).val; omega

/-- Window 15's block is its whole array at every point. -/
theorem read15 (A : S10x10.Idx → EReal) (t : Fin cfg0.N) :
    (((cfg0.win 15).blk t).view.read (Elt Ideal) A : S10x10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 15).blk t).view.emb y) = A y
  refine congrArg A (funext fun a => Fin.ext ?_)
  match a with
  | ⟨0, _⟩ => show win0_15.index t (0 : Fin 2) * 10 + 1 * (y 0).val = (y 0).val; omega
  | ⟨1, _⟩ => show win0_15.index t (1 : Fin 2) * 10 + 1 * (y 1).val = (y 1).val; omega

/-- Window 16's block is its whole array at every point. -/
theorem read16 (A : S10.Idx → EReal) (t : Fin cfg0.N) :
    (((cfg0.win 16).blk t).view.read (Elt Ideal) A : S10.Idx → EReal) = A := by
  obtain ⟨⟨c3_0, c3_1⟩, c4_0, ⟨c5_0, c5_1⟩, c6_0, ⟨c7_0, c7_1⟩, c8_0, ⟨c9_0, c9_1⟩, c10_0, ⟨c11_0, c11_1⟩, c12_0, ⟨c13_0, c13_1⟩, c14_0, ⟨c15_0, c15_1⟩, c16_0⟩ := idx_const t
  funext y
  show A (((cfg0.win 16).blk t).view.emb y) = A y
  refine congrArg A (funext fun a => Fin.ext ?_)
  match a with
  | ⟨0, _⟩ => show win0_16.index t (0 : Fin 1) * 10 + 1 * (y 0).val = (y 0).val; omega

/-! ## Where the result blocks land, and that they cover -/

/-- Block coordinate `(0, n, 0)` of the readout window at point `t` is array coordinate `(t, n, 0)`. -/
theorem emb17 (t : Fin cfg0.N) (n : Fin 1024) :
    ((cfg0.win 17).blk t).view.emb (ix3 0 n 0) = (ix3 (gb t) n 0 : S8x1024x1.Idx) := by
  obtain ⟨-, -, -, ⟨e0, e1, e2⟩, -⟩ := idx_facts t
  funext a; apply Fin.ext
  match a with
  | ⟨0, _⟩ => show win0_17.index t (0 : Fin 3) * 1 + 1 * 0 = t.val; omega
  | ⟨1, _⟩ => show win0_17.index t (1 : Fin 3) * 1024 + 1 * n.val = n.val; omega
  | ⟨2, _⟩ => show win0_17.index t (2 : Fin 3) * 1 + 1 * 0 = 0; omega

/-- Block coordinate `(0, n, o)` of the embedding window at point `t` is array coordinate `(t, n, o)`. -/
theorem emb18 (t : Fin cfg0.N) (n : Fin 1024) (o : Fin 10) :
    ((cfg0.win 18).blk t).view.emb (ix3 0 n o) = (ix3 (gb t) n o : S8x1024x10.Idx) := by
  obtain ⟨-, -, -, -, ⟨e0, e1, e2⟩⟩ := idx_facts t
  funext a; apply Fin.ext
  match a with
  | ⟨0, _⟩ => show win0_18.index t (0 : Fin 3) * 1 + 1 * 0 = t.val; omega
  | ⟨1, _⟩ => show win0_18.index t (1 : Fin 3) * 1024 + 1 * n.val = n.val; omega
  | ⟨2, _⟩ => show win0_18.index t (2 : Fin 3) * 10 + 1 * o.val = o.val; omega

/-- The graph number as a grid point. -/
abbrev pt (b : Fin 8) : Fin cfg0.N := ⟨b.val, by have e : cfg0.N = 8 := N_0; have := b.isLt; omega⟩

/-- Every index of the readout array lies in the block of the point its graph names. -/
theorem cover17 (i : S8x1024x1.Idx) :
    ∃ t : Fin cfg0.N, (cfg0.win 17).flush t = true ∧ i ∈ ((cfg0.win 17).blk t).view.set := by
  obtain ⟨b, n, u, rfl⟩ : ∃ (b : Fin 8) (n : Fin 1024) (u : Fin 1), i = ix3 b n u := ⟨i 0, i 1, i 2, eq_ix3 i⟩
  obtain rfl : u = 0 := Subsingleton.elim _ _
  refine ⟨pt b, flush0_17 _, ?_⟩
  have h := ((cfg0.win 17).blk (pt b)).view.emb_mem_set (ix3 0 n 0)
  rwa [emb17] at h

/-- Every index of the embedding array lies in the block of the point its graph names. -/
theorem cover18 (i : S8x1024x10.Idx) :
    ∃ t : Fin cfg0.N, (cfg0.win 18).flush t = true ∧ i ∈ ((cfg0.win 18).blk t).view.set := by
  obtain ⟨b, n, o, rfl⟩ : ∃ (b : Fin 8) (n : Fin 1024) (o : Fin 10), i = ix3 b n o := ⟨i 0, i 1, i 2, eq_ix3 i⟩
  refine ⟨pt b, flush0_18 _, ?_⟩
  have h := ((cfg0.win 18).blk (pt b)).view.emb_mem_set (ix3 0 n o)
  rwa [emb18] at h

end Cert.KernelIdeal.Blocks

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.KEdge.lean ====
/-
  The ten edge channels of the graph network, as the program computes them over the extended reals.

  For channel `e` the program reads two scalars out of the small parameter arrays: `c`, the entry `(e, 0)` of the
  `10×1` column (a `1×1` block cut out at offset `(e, 0)`, read at its only position), and `b`, the entry `e` of
  the vector of 10 (a block of one cut out at offset `e`). It then forms, entrywise over the `1024×1024` weight
  matrix `W`, the value `max (W i j * c + b) 0` — each scalar spread over the whole matrix first — and sums it over
  the row index `i` for every column `j`. That column sum is exactly `Cert.Gnn.edge W ew eb j e` with
  `ew e = c` and `eb e = b`.

  The module proves this in three steps: the two block-and-read lemmas (`col_entry`, `vec_entry`), one lemma for the
  column sum of the rectified affine image over arbitrary scalars (`colsum_relu`: the sum along axis 0 read at `j`
  is a sum over `Fin 1024`, and every entrywise operation and every spread scalar reads off definitionally), and
  then one theorem per channel. Channels 0 to 8 are whole column sums; for channel 9 only its two scalars are
  formed here. Nothing is distributed, cancelled or assumed finite.
-/
import proofs.«129381_j87771951661882_1_alg».proof.Proof.Gen.KernelIdeal.Skeleton
import proofs.«129381_j87771951661882_1_alg».proof.Proof.Spec
import proofs.«129381_j87771951661882_1_alg».proof.Proof.LibPlainDot
import proofs.«129381_j87771951661882_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeVal

open Idealize.ShloMosaic Idealize.ShloMosaic.ValueIdx Cert.KernelIdeal Cert.KernelIdeal.Gen

/-- The entry `(e, 0)` of the column, taken out as a `1×1` block at offset `(e, 0)` and read at its one position. -/
theorem col_entry (x9 : Vec Ideal S10x1 .f32) (off : Fin 2 → Nat) (h : S10x1.Slices off S1x1)
    (hp : ∀ a, (![0, 0] : Fin 2 → Nat) a < S1x1.size a) (e : Fin 10) (h0 : off 0 = e.val) (h1 : off 1 = 0) :
    extractAt ![0, 0] (extractStridedSlice S1x1 off x9 h) hp = x9 (ix2 e 0) := by
  unfold extractAt
  refine extractStridedSlice_apply off x9 h _ (ix2 e 0) fun a => ?_
  match a with
  | ⟨0, _⟩ => show e.val = off 0 + 0; rw [h0, Nat.add_zero]
  | ⟨1, _⟩ => show 0 = off 1 + 0; rw [h1]

/-- The entry `e` of the vector, taken out as a block of one at offset `e` and read at its one position. -/
theorem vec_entry (x10 : Vec Ideal S10 .f32) (off : Fin 1 → Nat) (h : S10.Slices off S1)
    (hp : ∀ a, (![0] : Fin 1 → Nat) a < S1.size a) (e : Fin 10) (h0 : off 0 = e.val) :
    extractAt ![0] (extractStridedSlice S1 off x10 h) hp = x10 (ix1 e) := by
  unfold extractAt
  refine extractStridedSlice_apply off x10 h _ (ix1 e) fun a => ?_
  match a with
  | ⟨0, _⟩ => show e.val = off 0 + 0; rw [h0, Nat.add_zero]

/-- The rectified affine image of a matrix by two scalars, summed down each column. -/
theorem colsum_relu (v3 : FVec Ideal S1024x1024 .f32) (c b z : Ideal .f32) (hz : z = 0) (j : Fin 1024) :
    multiReduction .add [0] S1024
        (maximumf (addf (mulf v3 (broadcast S1024x1024 c)) (broadcast S1024x1024 b)) (broadcast S1024x1024 z))
        0x00000000#32 reduces_S1024x1024_S1024 (.inl rfl) rfl (ix1 j)
      = ∑ i : Fin 1024, max (v3 (ix2 i j) * c + b) 0 :=
  (Cert.Keepdims.sum_axis0_apply _ 0x00000000#32 reduces_S1024x1024_S1024 (.inl rfl) rfl j).trans
    (Finset.sum_congr rfl fun i _ => by
      show max (v3 (ix2 i j) * c + b) z = _
      rw [hz])

/-- The program's f32 zero constant is the extended real `0`. -/
theorem zero_scalar : (Scalar.ofBits .f32 0x00000000#32 : Ideal .f32) = 0 := Ideal.ofBits_zero_f32

/-- Channel 0: the column sum of `max (W i j * ew 0 + eb 0) 0`. -/
theorem pay8_eq (v3 : FVec Ideal S1024x1024 .f32) (x9 : Vec Ideal S10x1 .f32) (x10 : Vec Ideal S10 .f32) (j : Fin 1024) :
    k0_pay8 (F := Ideal) v3 x10 (k0_pay7 x9) (ix1 j)
      = Cert.Gnn.edge (fun i j => v3 (ix2 i j)) (fun e => x9 (ix2 e 0)) (fun e => x10 (ix1 e)) j 0 := by
  unfold k0_pay8 k0_pay7 Cert.Gnn.edge
  refine (colsum_relu v3 _ _ _ zero_scalar j).trans ?_
  rw [col_entry x9 _ _ _ 0 rfl rfl, vec_entry x10 _ _ _ 0 rfl]

/-- Channel 1: the column sum of `max (W i j * ew 1 + eb 1) 0`. -/
theorem pay9_eq (v3 : FVec Ideal S1024x1024 .f32) (x9 : Vec Ideal S10x1 .f32) (x10 : Vec Ideal S10 .f32) (j : Fin 1024) :
    k0_pay9 (F := Ideal) v3 x9 x10 (ix1 j)
      = Cert.Gnn.edge (fun i j => v3 (ix2 i j)) (fun e => x9 (ix2 e 0)) (fun e => x10 (ix1 e)) j 1 := by
  unfold k0_pay9 Cert.Gnn.edge
  refine (colsum_relu v3 _ _ _ zero_scalar j).trans ?_
  rw [col_entry x9 _ _ _ 1 rfl rfl, vec_entry x10 _ _ _ 1 rfl]

/-- Channel 2: the column sum of `max (W i j * ew 2 + eb 2) 0`. -/
theorem pay10_eq (v3 : FVec Ideal S1024x1024 .f32) (x9 : Vec Ideal S10x1 .f32) (x10 : Vec Ideal S10 .f32) (j : Fin 1024) :
    k0_pay10 (F := Ideal) v3 x9 x10 (ix1 j)
      = Cert.Gnn.edge (fun i j => v3 (ix2 i j)) (fun e => x9 (ix2 e 0)) (fun e => x10 (ix1 e)) j 2 := by
  unfold k0_pay10 Cert.Gnn.edge
  refine (colsum_relu v3 _ _ _ zero_scalar j).trans ?_
  rw [col_entry x9 _ _ _ 2 rfl rfl, vec_entry x10 _ _ _ 2 rfl]

/-- Channel 3: the column sum of `max (W i j * ew 3 + eb 3) 0`. -/
theorem pay11_eq (v3 : FVec Ideal S1024x1024 .f32) (x9 : Vec Ideal S10x1 .f32) (x10 : Vec Ideal S10 .f32) (j : Fin 1024) :
    k0_pay11 (F := Ideal) v3 x9 x10 (ix1 j)
      = Cert.Gnn.edge (fun i j => v3 (ix2 i j)) (fun e => x9 (ix2 e 0)) (fun e => x10 (ix1 e)) j 3 := by
  unfold k0_pay11 Cert.Gnn.edge
  refine (colsum_relu v3 _ _ _ zero_scalar j).trans ?_
  rw [col_entry x9 _ _ _ 3 rfl rfl, vec_entry x10 _ _ _ 3 rfl]

/-- Channel 4: the column sum of `max (W i j * ew 4 + eb 4) 0`. -/
theorem pay13_eq (v3 : FVec Ideal S1024x1024 .f32) (x9 : Vec Ideal S10x1 .f32) (x10 : Vec Ideal S10 .f32) (j : Fin 1024) :
    k0_pay13 (F := Ideal) (k0_pay12 v3 x9 x10) (Scalar.ofBits .f32 0x00000000#32) (ix1 j)
      = Cert.Gnn.edge (fun i j => v3 (ix2 i j)) (fun e => x9 (ix2 e 0)) (fun e => x10 (ix1 e)) j 4 := by
  unfold k0_pay13 k0_pay12 Cert.Gnn.edge
  refine (colsum_relu v3 _ _ _ zero_scalar j).trans ?_
  rw [col_entry x9 _ _ _ 4 rfl rfl, vec_entry x10 _ _ _ 4 rfl]

/-- Channel 5: the column sum of `max (W i j * ew 5 + eb 5) 0`. -/
theorem pay14_eq (v3 : FVec Ideal S1024x1024 .f32) (x9 : Vec Ideal S10x1 .f32) (x10 : Vec Ideal S10 .f32) (j : Fin 1024) :
    k0_pay14 (F := Ideal) v3 x9 x10 (ix1 j)
      = Cert.Gnn.edge (fun i j => v3 (ix2 i j)) (fun e => x9 (ix2 e 0)) (fun e => x10 (ix1 e)) j 5 := by
  unfold k0_pay14 Cert.Gnn.edge
  refine (colsum_relu v3 _ _ _ zero_scalar j).trans ?_
  rw [col_entry x9 _ _ _ 5 rfl rfl, vec_entry x10 _ _ _ 5 rfl]

/-- Channel 6: the column sum of `max (W i j * ew 6 + eb 6) 0`. -/
theorem pay15_eq (v3 : FVec Ideal S1024x1024 .f32) (x9 : Vec Ideal S10x1 .f32) (x10 : Vec Ideal S10 .f32) (j : Fin 1024) :
    k0_pay15 (F := Ideal) v3 x9 x10 (ix1 j)
      = Cert.Gnn.edge (fun i j => v3 (ix2 i j)) (fun e => x9 (ix2 e 0)) (fun e => x10 (ix1 e)) j 6 := by
  unfold k0_pay15 Cert.Gnn.edge
  refine (colsum_relu v3 _ _ _ zero_scalar j).trans ?_
  rw [col_entry x9 _ _ _ 6 rfl rfl, vec_entry x10 _ _ _ 6 rfl]

/-- Channel 7: the column sum of `max (W i j * ew 7 + eb 7) 0`. -/
theorem pay16_eq (v3 : FVec Ideal S1024x1024 .f32) (x9 : Vec Ideal S10x1 .f32) (x10 : Vec Ideal S10 .f32) (j : Fin 1024) :
    k0_pay16 (F := Ideal) v3 x9 x10 (ix1 j)
      = Cert.Gnn.edge (fun i j => v3 (ix2 i j)) (fun e => x9 (ix2 e 0)) (fun e => x10 (ix1 e)) j 7 := by
  unfold k0_pay16 Cert.Gnn.edge
  refine (colsum_relu v3 _ _ _ zero_scalar j).trans ?_
  rw [col_entry x9 _ _ _ 7 rfl rfl, vec_entry x10 _ _ _ 7 rfl]

/-- Channel 8: the column sum of `max (W i j * ew 8 + eb 8) 0`. -/
theorem pay17_eq (v3 : FVec Ideal S1024x1024 .f32) (x9 : Vec Ideal S10x1 .f32) (x10 : Vec Ideal S10 .f32) (j : Fin 1024) :
    k0_pay17 (F := Ideal) v3 x9 x10 (ix1 j)
      = Cert.Gnn.edge (fun i j => v3 (ix2 i j)) (fun e => x9 (ix2 e 0)) (fun e => x10 (ix1 e)) j 8 := by
  unfold k0_pay17 Cert.Gnn.edge
  refine (colsum_relu v3 _ _ _ zero_scalar j).trans ?_
  rw [col_entry x9 _ _ _ 8 rfl rfl, vec_entry x10 _ _ _ 8 rfl]

/-- Channel 9's multiplier: the entry `(9, 0)` of the column. -/
theorem pay18_eq (x9 : Vec Ideal S10x1 .f32) : k0_pay18 (F := Ideal) x9 = x9 (ix2 (9 : Fin 10) (0 : Fin 1)) := by
  unfold k0_pay18
  exact col_entry x9 _ _ _ 9 rfl rfl

/-- Channel 9's offset: the entry `9` of the vector. -/
theorem pay19_eq (x10 : Vec Ideal S10 .f32) : k0_pay19 (F := Ideal) x10 = x10 (ix1 (9 : Fin 10)) := by
  unfold k0_pay19
  exact vec_entry x10 _ _ _ 9 rfl

end Cert.KernelIdeal.EdgeVal

end
-- ==== Proof.KBase.lean ====
/-
  Two values of the kernel, read at an index over the extended reals.

  * The feature map. A graph's node features come as a `[1, 1024, 1]` block; the block is viewed as a column, the
    column is spread over 10 channels, multiplied entrywise by a row of 10 weights spread over the 1024 nodes, and a
    row of 10 biases is added. At node `n` and channel `e` this is `x n * sw e + sb e`: the feature's affine image.

  * The embedding-independent part of the update. Ten column vectors of length 1024 hold, for every node `j`, the ten
    channels `P j 0 … P j 9` of the rectified edge sums: nine arrive as vectors, the tenth is formed here as the sum
    over source nodes `i` of `max (W i j * a + b) 0`. Each vector becomes a `[1024, 1]` column, the ten columns are
    joined side by side into a `[1024, 10]` matrix whose entry `(n, k)` is `P n k`, the matrix is multiplied by the
    transposed `10 × 10` weight matrix (entry `(k, o)` of the transpose is `w o k`), the bias row is added, and the
    feature map's value is added in front. At `(n, o)` the result is
    `B n o + ((∑ e, P n e * w o e) + b o)`, the second summand being the affine map of the node's ten channels.

  Nothing is distributed, cancelled or assumed finite: each step is a reading of a layout operation at an index, and
  the one sum is re-indexed term by term.
-/
import proofs.«129381_j87771951661882_1_alg».proof.Proof.Gen.KernelIdeal.Skeleton
import proofs.«129381_j87771951661882_1_alg».proof.Proof.Spec
import proofs.«129381_j87771951661882_1_alg».proof.Proof.LibPlainDot
import proofs.«129381_j87771951661882_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BaseVal

open Idealize.ShloMosaic Idealize.ShloMosaic.ValueIdx Cert.KernelIdeal Cert.KernelIdeal.Gen

/-- The feature map at node `n` and channel `e`: the node's feature times the channel's weight, plus the channel's
    bias. The feature is read through the block's leading unit axis and the column's trailing one; the weight is read
    through a `[10, 1] → [10] → [1, 10]` change of layout (same row-major position throughout). -/
theorem pay6_eq (x0 : Vec Ideal S1x1024x1 .f32) (x3 : Vec Ideal S10x1 .f32) (x4 : Vec Ideal S10 .f32) (n : Fin 1024) (e : Fin 10) :
    k0_pay6 (F := Ideal) x0 x3 x4 (ix2 n e)
      = Cert.Gnn.sel (fun n => x0 (ix3 0 n 0)) (fun e => x3 (ix2 e 0)) (fun e => x4 (ix1 e)) n e := by
  unfold k0_pay6 Cert.Gnn.sel
  dsimp only
  rw [addf_apply, mulf_apply]
  -- the feature column spread over the channels
  have e1 : broadcastTo S1024x10 (shapeCast S1024x1 x0 shapeCasts_S1x1024x1_S1024x1) broadcasts_S1024x1_S1024x10 (ix2 n e)
      = x0 (ix3 0 n 0) :=
    (Cert.Keepdims.broadcastTo_a1_ab_apply _ broadcasts_S1024x1_S1024x10 n e).trans
      (shapeCast_1ab_ab_apply x0 shapeCasts_S1x1024x1_S1024x1 n (0 : Fin 1))
  -- the weight column turned into a row and spread over the nodes
  have e2 : broadcastTo S1024x10 (shapeCast S1x10 (shapeCast S10 x3 shapeCasts_S10x1_S10) shapeCasts_S10_S1x10) broadcasts_S1x10_S1024x10 (ix2 n e)
      = x3 (ix2 e 0) :=
    (broadcastTo_1b_ab_apply _ broadcasts_S1x10_S1024x10 n e).trans
      ((shapeCast_a_1a_apply _ shapeCasts_S10_S1x10 0 e).trans
        (shapeCast_apply x3 shapeCasts_S10x1_S10 _ (ix2 e (0 : Fin 1)) (by
          rw [Shape.rowMajor_val_two, Shape.rowMajor_val_one]
          show e.val * 1 + 0 = e.val
          rw [Nat.mul_one, Nat.add_zero])))
  -- the bias row spread over the nodes
  have e3 : broadcastTo S1024x10 (shapeCast S1x10 x4 shapeCasts_S10_S1x10) broadcasts_S1x10_S1024x10 (ix2 n e)
      = x4 (ix1 e) :=
    (broadcastTo_1b_ab_apply _ broadcasts_S1x10_S1024x10 n e).trans
      (shapeCast_a_1a_apply _ shapeCasts_S10_S1x10 0 e)
  rw [e1, e2, e3]

/-- Column `k` of a join of `[1024, 1]` columns along axis 1, when `k` columns of width one come before it. -/
theorem cat_col {α : Type} (xs : List ((s : Shape) × (s.Idx → α)))
    (h : Shape.Concatenates (xs.map (·.1)) S1024x10 1) (n : Fin 1024) (k : Fin 10)
    (hk : k.val < xs.length) (x : S1024x1.Idx → α) (hxk : xs[k.val] = ⟨S1024x1, x⟩)
    (hpre : (((xs.take k.val).map (·.1)).map fun s =>
      if h : s.rank = S1024x10.rank then s.size ((1 : Fin S1024x10.rank).cast h.symm) else 0).sum = k.val) :
    concatenate S1024x10 1 xs h (ix2 n k) = x (ix2 n (0 : Fin 1)) :=
  concatenate_apply_piece 1 xs h (ix2 n k) k.val hk S1024x1 x hxk rfl k.val hpre (ix2 n (0 : Fin 1))
    (fun b hb => match b, hb with
      | ⟨0, _⟩, _ => rfl
      | ⟨1, _⟩, hb => absurd rfl hb)
    rfl

/-- The embedding-independent part of the update at `(n, o)`, given that the ten column vectors hold the ten channels
    `P · 0 … P · 9` (the tenth as the sum it is formed from): the feature map's value plus the affine map of node `n`'s
    ten channels, row `o` of the weight matrix against them plus bias `o`. -/
theorem pay20_of (v3 : FVec Ideal S1024x1024 .f32) (v10 : Vec Ideal S10x10 .f32) (v11 : Vec Ideal S10 .f32) (v27 : FVec Ideal S1024x10 .f32)
    (v38 v49 v60 v71 v82 v93 v104 v115 v126 : FVec Ideal S1024 .f32) (v128 v130 : Ideal .f32) (P : Fin 1024 → Fin 10 → EReal)
    (h0 : ∀ j, v38 (ix1 j) = P j 0) (h1 : ∀ j, v49 (ix1 j) = P j 1) (h2 : ∀ j, v60 (ix1 j) = P j 2) (h3 : ∀ j, v71 (ix1 j) = P j 3)
    (h4 : ∀ j, v82 (ix1 j) = P j 4) (h5 : ∀ j, v93 (ix1 j) = P j 5) (h6 : ∀ j, v104 (ix1 j) = P j 6) (h7 : ∀ j, v115 (ix1 j) = P j 7)
    (h8 : ∀ j, v126 (ix1 j) = P j 8)
    (h9 : ∀ j : Fin 1024, (∑ i : Fin 1024, max (v3 (ix2 i j) * v128 + v130) 0) = P j 9) (n : Fin 1024) (o : Fin 10) :
    k0_pay20 (F := Ideal) v3 v10 v11 v27 v38 v49 v60 v71 v82 v93 v104 v115 v126 v128 v130 (ix2 n o)
      = v27 (ix2 n o) + Cert.Gnn.lin P (fun o e => v10 (ix2 o e)) (fun e => v11 (ix1 e)) n o := by
  unfold k0_pay20 Cert.Gnn.lin
  dsimp only
  -- split off the feature map's value, then the product from the bias row
  refine (addf_apply _ _ _).trans (congrArg (v27 (ix2 n o) + ·) ?_)
  refine (addf_apply _ _ _).trans (congrArg₂ (· + ·) ?_ ?_)
  · -- the product at `(n, o)` is the sum over `k` of entry `(n, k)` of the joined matrix times `w o k`
    refine (Cert.PlainDot.matmul_zero_apply 1024 10 10 none _ _ (ix2 n o)).trans ?_
    refine Finset.sum_congr rfl fun k _ => ?_
    refine congrArg₂ (· * ·) ?_ (transpose_ix2_apply v10 transposes_S10x10_p1_0_S10x10 k o)
    -- entry `(n, k)` of the joined matrix is `P n k`: column `k` is the `k`-th vector
    match k with
    | ⟨0, hk⟩ =>
      exact (cat_col _ _ n ⟨0, hk⟩ (by exact hk) _ (by rfl) (by rfl)).trans
        ((Cert.Keepdims.shapeCast_a_a1_apply v38 shapeCasts_S1024_S1024x1 n 0).trans (h0 n))
    | ⟨1, hk⟩ =>
      exact (cat_col _ _ n ⟨1, hk⟩ (by exact hk) _ (by rfl) (by rfl)).trans
        ((Cert.Keepdims.shapeCast_a_a1_apply v49 shapeCasts_S1024_S1024x1 n 0).trans (h1 n))
    | ⟨2, hk⟩ =>
      exact (cat_col _ _ n ⟨2, hk⟩ (by exact hk) _ (by rfl) (by rfl)).trans
        ((Cert.Keepdims.shapeCast_a_a1_apply v60 shapeCasts_S1024_S1024x1 n 0).trans (h2 n))
    | ⟨3, hk⟩ =>
      exact (cat_col _ _ n ⟨3, hk⟩ (by exact hk) _ (by rfl) (by rfl)).trans
        ((Cert.Keepdims.shapeCast_a_a1_apply v71 shapeCasts_S1024_S1024x1 n 0).trans (h3 n))
    | ⟨4, hk⟩ =>
      exact (cat_col _ _ n ⟨4, hk⟩ (by exact hk) _ (by rfl) (by rfl)).trans
        ((Cert.Keepdims.shapeCast_a_a1_apply v82 shapeCasts_S1024_S1024x1 n 0).trans (h4 n))
    | ⟨5, hk⟩ =>
      exact (cat_col _ _ n ⟨5, hk⟩ (by exact hk) _ (by rfl) (by rfl)).trans
        ((Cert.Keepdims.shapeCast_a_a1_apply v93 shapeCasts_S1024_S1024x1 n 0).trans (h5 n))
    | ⟨6, hk⟩ =>
      exact (cat_col _ _ n ⟨6, hk⟩ (by exact hk) _ (by rfl) (by rfl)).trans
        ((Cert.Keepdims.shapeCast_a_a1_apply v104 shapeCasts_S1024_S1024x1 n 0).trans (h6 n))
    | ⟨7, hk⟩ =>
      exact (cat_col _ _ n ⟨7, hk⟩ (by exact hk) _ (by rfl) (by rfl)).trans
        ((Cert.Keepdims.shapeCast_a_a1_apply v115 shapeCasts_S1024_S1024x1 n 0).trans (h7 n))
    | ⟨8, hk⟩ =>
      exact (cat_col _ _ n ⟨8, hk⟩ (by exact hk) _ (by rfl) (by rfl)).trans
        ((Cert.Keepdims.shapeCast_a_a1_apply v126 shapeCasts_S1024_S1024x1 n 0).trans (h8 n))
    | ⟨9, hk⟩ =>
      refine (cat_col _ _ n ⟨9, hk⟩ (by exact hk) _ (by rfl) (by rfl)).trans
        ((Cert.Keepdims.shapeCast_a_a1_apply _ shapeCasts_S1024_S1024x1 n 0).trans ?_)
      -- the tenth vector is the column sum of the rectified affine image of the weights
      refine (Cert.Keepdims.sum_axis0_apply _ 0x00000000#32 reduces_S1024x1024_S1024 (.inl rfl) rfl n).trans ?_
      refine (Finset.sum_congr rfl fun i _ => ?_).trans (h9 n)
      show max (v3 (ix2 i n) * v128 + v130) (Ideal.ofBits .f32 0x00000000#32) = _
      rw [Ideal.ofBits_zero_f32]
    | ⟨k + 10, hk⟩ => exact absurd hk (by omega)
  · -- the bias row spread over the nodes
    exact (broadcastTo_1b_ab_apply _ broadcasts_S1x10_S1024x10 n o).trans
      (shapeCast_a_1a_apply v11 shapeCasts_S10_S1x10 0 o)

end Cert.KernelIdeal.BaseVal

end
-- ==== Proof.KStep.lean ====
/-
  The three updates of the embedding in the kernel, read at one node and one channel over the extended reals.

  With `A` the graph's adjacency, `B` the embedding-independent base, `w` the 10x10 propagation matrix and `b` its
  bias, one update of an embedding `E` is

      step E (n, o) = max (B (n, o) + ((∑ e, (∑ j, A (n, j) * E (j, e)) * w (o, e)) + b o)) 0.

  In the kernel each piece is an array operation: the propagation `∑ j, A (i, j) * E (j, e)` is a 1024x1024 by
  1024x10 product into a zero accumulator whose operands are first narrowed (the identity on extended reals); the
  affine map is a 1024x10 by 10x10 product with the TRANSPOSED matrix, so its entry `(n, o)` is
  `∑ e, P (n, e) * w (o, e)`; the bias is the 10-vector cast to one row and repeated over the 1024 nodes; and the
  rectification is a maximum with a splat of the zero word, which encodes the extended real `0`.

  * `update_apply`: the affine map, bias, base and rectification of a propagated embedding `P`, at `(n, o)`.
  * `prop_apply`, `step_apply`: the propagation, and a whole update, of an array `E` that agrees with a function
    `E'` of node and channel, as `Cert.Gnn.prop` and `Cert.Gnn.step` of `E'`.
  * `pay21_of`: the first array is two updates from the zero embedding followed by one more propagation.
  * `pay1_eq`: the last array is the third update, written over the propagated embedding it is given.
  * `pay3_eq`: the stored array is that one with a leading unit axis.

  Nothing is distributed or cancelled: every step is an unfolding, a re-indexing of a sum term by term, or
  `0 + x = x` inside the product lemma, so all of it holds at the infinities too.
-/
import proofs.«129381_j87771951661882_1_alg».proof.Proof.Gen.KernelIdeal.Skeleton
import proofs.«129381_j87771951661882_1_alg».proof.Proof.Spec
import proofs.«129381_j87771951661882_1_alg».proof.Proof.LibPlainDot
import proofs.«129381_j87771951661882_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.StepVal

open Idealize.ShloMosaic Idealize.ShloMosaic.ValueIdx Cert.KernelIdeal Cert.KernelIdeal.Gen

/-- The bias row: a vector of 10 channels cast to one row and repeated over the nodes reads its channel. -/
theorem bias_apply (v13 : Vec Ideal S10 .f32) (n : Fin 1024) (o : Fin 10) :
    broadcastTo S1024x10 (shapeCast S1x10 v13 shapeCasts_S10_S1x10) broadcasts_S1x10_S1024x10 (ix2 n o) = v13 (ix1 o) :=
  (broadcastTo_1b_ab_apply _ broadcasts_S1x10_S1024x10 n o).trans
    (shapeCast_a_1a_apply v13 shapeCasts_S10_S1x10 (0 : Fin 1) o)

/-- The affine map: the product with the transposed 10x10 matrix into a zero accumulator, at an index. -/
theorem lin_apply (P : FVec Ideal S1024x10 .f32) (v12 : Vec Ideal S10x10 .f32) (n : Fin 1024) (o : Fin 10) :
    matmul dot_S1024x10_S10x10_S1024x10_1_0_0_1_n_n none P
        (transpose S10x10 [1, 0] v12 transposes_S10x10_p1_0_S10x10 : FVec Ideal S10x10 .f32) (constant S1024x10 .f32 0x00000000#32) (ix2 n o)
      = ∑ e : Fin 10, P (ix2 n e) * v12 (ix2 o e) := by
  refine (Cert.PlainDot.matmul_zero_apply 1024 10 10 none P _ (ix2 n o)).trans ?_
  refine Finset.sum_congr rfl fun e _ => ?_
  exact congrArg (fun t => P (ix2 n e) * t) (transpose_ix2_apply v12 transposes_S10x10_p1_0_S10x10 e o)

/-- One update at an index, over the propagated embedding `P`. -/
theorem update_apply (v13 : Vec Ideal S10 .f32) (Bv P : FVec Ideal S1024x10 .f32) (v12 : Vec Ideal S10x10 .f32)
    (n : Fin 1024) (o : Fin 10) :
    maximumf (addf Bv (addf (matmul dot_S1024x10_S10x10_S1024x10_1_0_0_1_n_n none P
        (transpose S10x10 [1, 0] v12 transposes_S10x10_p1_0_S10x10 : FVec Ideal S10x10 .f32) (constant S1024x10 .f32 0x00000000#32))
        (broadcastTo S1024x10 (shapeCast S1x10 v13 shapeCasts_S10_S1x10) broadcasts_S1x10_S1024x10)))
      (broadcast S1024x10 (Scalar.ofBits (F := Ideal) .f32 0x00000000#32)) (ix2 n o)
      = max (Bv (ix2 n o) + ((∑ e : Fin 10, P (ix2 n e) * v12 (ix2 o e)) + v13 (ix1 o))) 0 := by
  show max (Bv (ix2 n o) + (matmul dot_S1024x10_S10x10_S1024x10_1_0_0_1_n_n none P
        (transpose S10x10 [1, 0] v12 transposes_S10x10_p1_0_S10x10 : FVec Ideal S10x10 .f32) (constant S1024x10 .f32 0x00000000#32) (ix2 n o)
        + broadcastTo S1024x10 (shapeCast S1x10 v13 shapeCasts_S10_S1x10) broadcasts_S1x10_S1024x10 (ix2 n o)))
      (Ideal.ofBits .f32 0x00000000#32) = _
  rw [lin_apply, bias_apply, Ideal.ofBits_zero_f32]

/-- The third update: the last array at `(n, o)`, over the propagated embedding `v178` and the matrix `v12`. -/
theorem pay1_eq (v13 : Vec Ideal S10 .f32) (v154 v178 : FVec Ideal S1024x10 .f32) (v12 : Vec Ideal S10x10 .f32) (n : Fin 1024) (o : Fin 10) :
    k0_pay1 (F := Ideal) v13 v154 v178 (k0_pay22 v12) (ix2 n o)
      = max (v154 (ix2 n o) + ((∑ e : Fin 10, v178 (ix2 n e) * v12 (ix2 o e)) + v13 (ix1 o))) 0 :=
  update_apply v13 v154 v178 v12 n o

/-- The stored array is the third update with a leading unit axis. -/
theorem pay3_eq (v13 : Vec Ideal S10 .f32) (v154 v178 : FVec Ideal S1024x10 .f32) (v179 : FVec Ideal S10x10 .f32) (n : Fin 1024) (o : Fin 10) :
    k0_pay3 (F := Ideal) v13 v154 v178 v179 (ix3 0 n o) = k0_pay1 (F := Ideal) v13 v154 v178 v179 (ix2 n o) :=
  shapeCast_ab_1ab_apply (k0_pay1 (F := Ideal) v13 v154 v178 v179) shapeCasts_S1024x10_S1x1024x10 (0 : Fin 1) n o

/-- The adjacency product: the 1024x1024 by 1024x10 product into a zero accumulator, both operands narrowed (the
    identity on extended reals), is one propagation of the embedding. -/
theorem prop_apply (A : FVec Ideal S1024x1024 .f32) (E : FVec Ideal S1024x10 .f32) (E' : Fin 1024 → Fin 10 → EReal)
    (hE : ∀ n o, E (ix2 n o) = E' n o) (i : Fin 1024) (e : Fin 10) :
    matmul dot_S1024x1024_S1024x10_S1024x10_1_0_0_1_n_n none (truncf .bf16 A bitsLt_bf16_f32)
        (truncf .bf16 E bitsLt_bf16_f32) (constant S1024x10 .f32 0x00000000#32) (ix2 i e)
      = Cert.Gnn.prop (fun i j => A (ix2 i j)) E' i e := by
  refine (Cert.PlainDot.matmul_zero_apply 1024 1024 10 none (truncf .bf16 A bitsLt_bf16_f32)
    (truncf .bf16 E bitsLt_bf16_f32) (ix2 i e)).trans ?_
  unfold Cert.Gnn.prop
  refine Finset.sum_congr rfl fun k _ => ?_
  show A (ix2 i k) * E (ix2 k e) = A (ix2 i k) * E' k e
  rw [hE]

/-- One update of an embedding `E`, at an index: propagate, apply the affine map, add the base, rectify. -/
theorem step_apply (A : FVec Ideal S1024x1024 .f32) (Bv : FVec Ideal S1024x10 .f32) (B : Fin 1024 → Fin 10 → EReal)
    (hB : ∀ n o, Bv (ix2 n o) = B n o) (E : FVec Ideal S1024x10 .f32) (E' : Fin 1024 → Fin 10 → EReal)
    (hE : ∀ n o, E (ix2 n o) = E' n o) (v12 : Vec Ideal S10x10 .f32) (v13 : Vec Ideal S10 .f32)
    (n : Fin 1024) (o : Fin 10) :
    maximumf (addf Bv (addf (matmul dot_S1024x10_S10x10_S1024x10_1_0_0_1_n_n none
          (matmul dot_S1024x1024_S1024x10_S1024x10_1_0_0_1_n_n none (truncf .bf16 A bitsLt_bf16_f32)
            (truncf .bf16 E bitsLt_bf16_f32) (constant S1024x10 .f32 0x00000000#32))
          (transpose S10x10 [1, 0] v12 transposes_S10x10_p1_0_S10x10 : FVec Ideal S10x10 .f32) (constant S1024x10 .f32 0x00000000#32))
        (broadcastTo S1024x10 (shapeCast S1x10 v13 shapeCasts_S10_S1x10) broadcasts_S1x10_S1024x10)))
      (broadcast S1024x10 (Scalar.ofBits (F := Ideal) .f32 0x00000000#32)) (ix2 n o)
      = Cert.Gnn.step (fun i j => A (ix2 i j)) B (fun o e => v12 (ix2 o e)) (fun e => v13 (ix1 e)) E' n o := by
  refine (update_apply v13 Bv _ v12 n o).trans ?_
  unfold Cert.Gnn.step Cert.Gnn.lin
  rw [hB]
  refine congrArg (fun t => max (B n o + (t + v13 (ix1 o))) 0) ?_
  exact Finset.sum_congr rfl fun e _ => congrArg (fun t => t * v12 (ix2 o e)) (prop_apply A E E' hE n e)

/-- The first array: two updates from the zero embedding, then one propagation along the adjacency `v5`, with `B`
    the values of the base array. -/
theorem pay21_of (v3 v5 : FVec Ideal S1024x1024 .f32) (v10 : Vec Ideal S10x10 .f32) (v11 : Vec Ideal S10 .f32) (v12 : Vec Ideal S10x10 .f32) (v13 : Vec Ideal S10 .f32)
    (v27 : FVec Ideal S1024x10 .f32) (v38 v49 v60 v71 v82 v93 v104 v115 v126 : FVec Ideal S1024 .f32) (v128 v130 : Ideal .f32) (B : Fin 1024 → Fin 10 → EReal)
    (hB : ∀ n o, k0_pay20 (F := Ideal) v3 v10 v11 v27 v38 v49 v60 v71 v82 v93 v104 v115 v126 v128 v130 (ix2 n o) = B n o) (i : Fin 1024) (e : Fin 10) :
    k0_pay21 (F := Ideal) v3 v5 v10 v11 v12 v13 v27 v38 v49 v60 v71 v82 v93 v104 v115 v126 v128 v130 (ix2 i e)
      = Cert.Gnn.prop (fun i j => v5 (ix2 i j))
          (Cert.Gnn.step (fun i j => v5 (ix2 i j)) B (fun o e => v12 (ix2 o e)) (fun e => v13 (ix1 e))
            (Cert.Gnn.step (fun i j => v5 (ix2 i j)) B (fun o e => v12 (ix2 o e)) (fun e => v13 (ix1 e)) fun _ _ => 0)) i e := by
  unfold k0_pay21
  generalize k0_pay20 (F := Ideal) v3 v10 v11 v27 v38 v49 v60 v71 v82 v93 v104 v115 v126 v128 v130 = Bv at hB ⊢
  refine prop_apply v5 _ _ (fun n o => ?_) i e
  refine step_apply v5 Bv B hB _ _ (fun n o => ?_) v12 v13 n o
  refine step_apply v5 Bv B hB _ _ (fun n o => ?_) v12 v13 n o
  exact Ideal.ofBits_zero_f32

end Cert.KernelIdeal.StepVal

end
-- ==== Proof.KReadout.lean ====
/-
  The readout of one graph, read at a node.

  From the node embeddings `E` (1024 nodes, 10 channels) the program forms
  * the pooled row: the embeddings summed over the nodes, one 10-channel row, sent through an affine map (the
    matrix applied transposed, then a bias row);
  * each node's own affine image under a second such map;
  * for every node the 20 channels "pooled row, then own image", the pooled row being the same for all nodes;
  * the contraction of those 20 channels with one row of weights, plus one bias.
  Here each of these four steps is read at an index as the sum it is, over the extended reals, and the chain of
  them is identified with the specification's `pool`, `lin`, `cat` and `q`. Only sums are re-indexed and
  transposed matrices read entry by entry; nothing is distributed, cancelled or assumed finite.
-/
import proofs.«129381_j87771951661882_1_alg».proof.Proof.Gen.KernelIdeal.Skeleton
import proofs.«129381_j87771951661882_1_alg».proof.Proof.Spec
import proofs.«129381_j87771951661882_1_alg».proof.Proof.LibPlainDot
import proofs.«129381_j87771951661882_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ReadoutVal

open Idealize.ShloMosaic Idealize.ShloMosaic.ValueIdx Cert.KernelIdeal Cert.KernelIdeal.Gen

/-- The pooled row at channel `o`: the column sums of a `1024×10` matrix `X`, as a `1×10` row, times the transpose
    of `v14`, plus `v15`: `(∑ e, (∑ m, X (m, e)) * v14 (o, e)) + v15 o`. -/
theorem pooled_apply (X : FVec Ideal S1024x10 .f32) (v14 : FVec Ideal S10x10 .f32) (v15 : FVec Ideal S10 .f32) (o : Fin 10) :
    addf (F := Ideal)
        (shapeCast S10
          (matmul (F := Ideal) dot_S1x10_S10x10_S1x10_1_0_0_1_n_n none
            (shapeCast S1x10
              (multiReduction (F := Ideal) .add [0] S10 X 0x00000000#32 reduces_S1024x10_S10 (.inl rfl) rfl)
              shapeCasts_S10_S1x10)
            (transpose S10x10 [1, 0] v14 transposes_S10x10_p1_0_S10x10)
            (constant (F := Ideal) S1x10 .f32 0x00000000#32))
          shapeCasts_S1x10_S10)
        v15 (ix1 o)
      = (∑ e : Fin 10, (∑ m : Fin 1024, X (ix2 m e)) * v14 (ix2 o e)) + v15 (ix1 o) := by
  refine (addf_apply _ _ _).trans ?_
  refine congrArg (· + v15 (ix1 o)) ?_
  refine (shapeCast_1a_a_apply _ shapeCasts_S1x10_S10 o).trans ?_
  refine (Cert.PlainDot.matmul_zero_apply 1 10 10 none _ _ (ix2 (0 : Fin 1) o)).trans ?_
  refine Finset.sum_congr rfl fun e _ => ?_
  exact congrArg₂ (· * ·)
    ((shapeCast_a_1a_apply _ shapeCasts_S10_S1x10 (0 : Fin 1) e).trans
      (Cert.Keepdims.sum_axis0_apply X 0x00000000#32 reduces_S1024x10_S10 (.inl rfl) rfl e))
    (transpose_ix2_apply v14 transposes_S10x10_p1_0_S10x10 e o)

/-- A node's own affine image at `(n, o)`: row `n` of `X` against row `o` of `v16` (the matrix enters transposed),
    plus the bias row `v17` broadcast over the nodes. -/
theorem nodeMap_apply (X : FVec Ideal S1024x10 .f32) (v16 : FVec Ideal S10x10 .f32) (v17 : FVec Ideal S10 .f32)
    (n : Fin 1024) (o : Fin 10) :
    addf (F := Ideal)
        (matmul (F := Ideal) dot_S1024x10_S10x10_S1024x10_1_0_0_1_n_n none X
          (transpose S10x10 [1, 0] v16 transposes_S10x10_p1_0_S10x10)
          (constant (F := Ideal) S1024x10 .f32 0x00000000#32))
        (broadcastTo S1024x10 (shapeCast S1x10 v17 shapeCasts_S10_S1x10) broadcasts_S1x10_S1024x10) (ix2 n o)
      = (∑ e : Fin 10, X (ix2 n e) * v16 (ix2 o e)) + v17 (ix1 o) := by
  refine (addf_apply _ _ _).trans ?_
  refine congrArg₂ (· + ·) ?_ ?_
  · refine (Cert.PlainDot.matmul_zero_apply 1024 10 10 none _ _ (ix2 n o)).trans ?_
    exact Finset.sum_congr rfl fun e _ =>
      congrArg (X (ix2 n e) * ·) (transpose_ix2_apply v16 transposes_S10x10_p1_0_S10x10 e o)
  · exact (broadcastTo_1b_ab_apply _ broadcasts_S1x10_S1024x10 n o).trans
      (shapeCast_a_1a_apply v17 shapeCasts_S10_S1x10 (0 : Fin 1) o)

/-- The 20 channels of node `n` at channel `k`: below 10 the row `R` (cast to `1×10`, broadcast over the nodes) at
    `k`, from 10 on the matrix `L` at `(n, k - 10)`. -/
theorem cat_apply (R : FVec Ideal S10 .f32) (L : FVec Ideal S1024x10 .f32) (n : Fin 1024) (k : Fin 20) :
    concatenate S1024x20 1
        [⟨S1024x10, broadcastTo S1024x10
            (shapeCast S1x10 (shapeCast S1x10 R shapeCasts_S10_S1x10) shapeCasts_S1x10_S1x10)
            broadcasts_S1x10_S1024x10⟩,
         ⟨S1024x10, L⟩]
        concatenates_S1024x10_S1024x10_S1024x20_d1 (ix2 n k)
      = if h : k.val < 10 then R (ix1 ⟨k.val, h⟩) else L (ix2 n ⟨k.val - 10, by omega⟩) := by
  by_cases h : k.val < 10
  · rw [dif_pos h]
    refine (concatenate_pair_apply_left (t := S1024x20) (s₁ := S1024x10) (s₂ := S1024x10) (1 : Fin 2) _ _
      concatenates_S1024x10_S1024x10_S1024x20_d1 (ix2 n k) rfl (ix2 n (⟨k.val, h⟩ : Fin 10)) (fun b => by
        match b with
        | ⟨0, _⟩ => rfl
        | ⟨1, _⟩ => rfl)).trans ?_
    refine (broadcastTo_1b_ab_apply _ broadcasts_S1x10_S1024x10 n (⟨k.val, h⟩ : Fin 10)).trans ?_
    rw [shapeCast_self]
    exact shapeCast_a_1a_apply R shapeCasts_S10_S1x10 (0 : Fin 1) (⟨k.val, h⟩ : Fin 10)
  · rw [dif_neg h]
    exact concatenate_pair_apply_right (t := S1024x20) (s₁ := S1024x10) (s₂ := S1024x10) (1 : Fin 2) _ _
      concatenates_S1024x10_S1024x10_S1024x20_d1 (ix2 n k) rfl rfl (ix2 n (⟨k.val - 10, by omega⟩ : Fin 10))
      (fun b hb => by
        match b with
        | ⟨0, _⟩ => rfl
        | ⟨1, _⟩ => exact absurd rfl hb)
      (by show k.val - 10 + 10 = k.val; omega)

/-- The last contraction at node `n`: row `n` of a `1024×20` matrix `C` against the weight row `v18` (entering as a
    `20×1` column), plus the one bias `v19`, stored as a `1×1024×1` block. -/
theorem contract_apply (C : FVec Ideal S1024x20 .f32) (v18 : FVec Ideal S1x20 .f32) (v19 : FVec Ideal S1 .f32)
    (n : Fin 1024) :
    shapeCast S1x1024x1
        (addf (F := Ideal)
          (matmul (F := Ideal) dot_S1024x20_S20x1_S1024x1_1_0_0_1_n_n none C
            (transpose S20x1 [1, 0] v18 transposes_S1x20_p1_0_S20x1)
            (constant (F := Ideal) S1024x1 .f32 0x00000000#32))
          (broadcastTo S1024x1 (shapeCast S1x1 v19 shapeCasts_S1_S1x1) broadcasts_S1x1_S1024x1))
        shapeCasts_S1024x1_S1x1024x1 (ix3 (0 : Fin 1) n (0 : Fin 1))
      = (∑ k : Fin 20, C (ix2 n k) * v18 (ix2 (0 : Fin 1) k)) + v19 (ix1 (0 : Fin 1)) := by
  refine (shapeCast_ab_1ab_apply _ shapeCasts_S1024x1_S1x1024x1 (0 : Fin 1) n (0 : Fin 1)).trans ?_
  refine (addf_apply _ _ _).trans ?_
  refine congrArg₂ (· + ·) ?_ ?_
  · refine (Cert.PlainDot.matmul_zero_apply 1024 20 1 none _ _ (ix2 n (0 : Fin 1))).trans ?_
    exact Finset.sum_congr rfl fun k _ =>
      congrArg (C (ix2 n k) * ·) (transpose_ix2_apply v18 transposes_S1x20_p1_0_S20x1 k (0 : Fin 1))
  · exact (broadcastTo_1b_ab_apply _ broadcasts_S1x1_S1024x1 n (0 : Fin 1)).trans
      (shapeCast_a_1a_apply v19 shapeCasts_S1_S1x1 (0 : Fin 1) (0 : Fin 1))

/-- The readout block at node `n` is the specification's `q` of the embeddings `E` that the embedding block reads
    as, with the six parameter arrays read entry by entry. -/
theorem pay2_of (v13 : Vec Ideal S10 .f32) (v14 : Vec Ideal S10x10 .f32) (v15 : Vec Ideal S10 .f32) (v16 : Vec Ideal S10x10 .f32) (v17 : Vec Ideal S10 .f32)
    (v18 : Vec Ideal S1x20 .f32) (v19 : Vec Ideal S1 .f32) (v154 v178 : FVec Ideal S1024x10 .f32) (v179 : FVec Ideal S10x10 .f32)
    (E : Fin 1024 → Fin 10 → EReal) (hE : ∀ n o, k0_pay1 (F := Ideal) v13 v154 v178 v179 (ix2 n o) = E n o) (n : Fin 1024) :
    k0_pay2 (F := Ideal) v13 v14 v15 v16 v17 v18 v19 v154 v178 v179 (ix3 0 n 0)
      = Cert.Gnn.q E (fun o e => v14 (ix2 o e)) (fun e => v15 (ix1 e)) (fun o e => v16 (ix2 o e)) (fun e => v17 (ix1 e))
          (fun k => v18 (ix2 0 k)) (v19 (ix1 0)) n := by
  unfold k0_pay2
  dsimp only
  refine (contract_apply _ v18 v19 n).trans ?_
  unfold Cert.Gnn.q
  refine congrArg (· + v19 (ix1 (0 : Fin 1))) ?_
  refine Finset.sum_congr rfl fun k _ => ?_
  refine congrArg (· * v18 (ix2 (0 : Fin 1) k)) ?_
  refine (cat_apply _ _ n k).trans ?_
  unfold Cert.Gnn.cat
  by_cases h : k.val < 10
  · rw [dif_pos h, dif_pos h]
    refine (pooled_apply _ v14 v15 (⟨k.val, h⟩ : Fin 10)).trans ?_
    unfold Cert.Gnn.pool
    exact congrArg (· + v15 (ix1 (⟨k.val, h⟩ : Fin 10)))
      (Finset.sum_congr rfl fun e _ =>
        congrArg (· * v14 (ix2 (⟨k.val, h⟩ : Fin 10) e)) (Finset.sum_congr rfl fun m _ => hE m e))
  · rw [dif_neg h, dif_neg h]
    refine (nodeMap_apply _ v16 v17 n _).trans ?_
    unfold Cert.Gnn.lin
    exact congrArg (· + v17 (ix1 _))
      (Finset.sum_congr rfl fun e _ => congrArg (· * v16 (ix2 _ e)) (hE n e))

end Cert.KernelIdeal.ReadoutVal

end
-- ==== Proof.KOut.lean ====
/-
  What one grid point stores, over the blocks it stages.

  The body of the kernel stores two values: the embedding of the staged graph, re-laid as a `[1, 1024, 10]` block, and
  its readout as a `[1, 1024, 1]` block. Both are compositions of the body's named intermediate values: the feature
  map, the ten rectified edge channels summed over the source nodes (nine as vectors, the tenth inside the value that
  joins them), the embedding-independent part of the update, two updates from zero followed by one more propagation
  along the adjacency, the third update, and the readout's pooled row, per-node map, join and final contraction.
  Each intermediate read at an index is the corresponding function of the specification; composing them gives the
  embedding and the readout of the staged graph, entry by entry. The loads are of whole staging buffers and the one
  store to each result buffer covers it, so a stored value read back is the stored value.
-/
import proofs.«129381_j87771951661882_1_alg».proof.Proof.Gen.KernelIdeal.Frame
import proofs.«129381_j87771951661882_1_alg».proof.Proof.Spec
import proofs.«129381_j87771951661882_1_alg».proof.Proof.KEdge
import proofs.«129381_j87771951661882_1_alg».proof.Proof.KBase
import proofs.«129381_j87771951661882_1_alg».proof.Proof.KStep
import proofs.«129381_j87771951661882_1_alg».proof.Proof.KReadout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Out

open Idealize.ShloMosaic Idealize.ShloMosaic.ValueIdx Cert.KernelIdeal Cert.KernelIdeal.Gen
open Cert.KernelIdeal.EdgeVal Cert.KernelIdeal.BaseVal Cert.KernelIdeal.StepVal Cert.KernelIdeal.ReadoutVal

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The weight block re-laid as a matrix: entry `(i, j)` is the block's `(0, i, j)`. -/
theorem pay4_apply (x : Vec Ideal S1x1024x1024 .f32) (i j : Fin 1024) : k0_pay4 (F := Ideal) x (ix2 i j) = x (ix3 0 i j) := by
  unfold k0_pay4
  exact shapeCast_1ab_ab_apply x shapeCasts_S1x1024x1024_S1024x1024 i j

/-- The adjacency block re-laid as a matrix. -/
theorem pay5_apply (x : Vec Ideal S1x1024x1024 .f32) (i j : Fin 1024) : k0_pay5 (F := Ideal) x (ix2 i j) = x (ix3 0 i j) := by
  unfold k0_pay5
  exact shapeCast_1ab_ab_apply x shapeCasts_S1x1024x1024_S1024x1024 i j

/-- The embedding-independent part of the update, from the ten edge channels and the feature map. -/
theorem pay20_eq (v3 : FVec Ideal S1024x1024 .f32) (x0 : Vec Ideal S1x1024x1 .f32) (x3 : Vec Ideal S10x1 .f32) (x4 : Vec Ideal S10 .f32)
    (x7 : Vec Ideal S10x10 .f32) (x8 : Vec Ideal S10 .f32) (x9 : Vec Ideal S10x1 .f32) (x10 : Vec Ideal S10 .f32) (n : Fin 1024) (o : Fin 10) :
    k0_pay20 (F := Ideal) v3 x7 x8 (k0_pay6 x0 x3 x4) (k0_pay8 v3 x10 (k0_pay7 x9)) (k0_pay9 v3 x9 x10) (k0_pay10 v3 x9 x10) (k0_pay11 v3 x9 x10) (k0_pay13 (k0_pay12 v3 x9 x10) (Scalar.ofBits .f32 0x00000000#32)) (k0_pay14 v3 x9 x10) (k0_pay15 v3 x9 x10) (k0_pay16 v3 x9 x10) (k0_pay17 v3 x9 x10) (k0_pay18 x9) (k0_pay19 x10) (ix2 n o)
      = Cert.Gnn.base (fun n => x0 (ix3 0 n 0)) (fun i j => v3 (ix2 i j)) (fun e => x3 (ix2 e 0)) (fun e => x4 (ix1 e))
          (fun e => x9 (ix2 e 0)) (fun e => x10 (ix1 e)) (fun o e => x7 (ix2 o e)) (fun e => x8 (ix1 e)) n o := by
  refine (pay20_of v3 x7 x8 _ _ _ _ _ _ _ _ _ _ _ _
    (Cert.Gnn.edge (fun i j => v3 (ix2 i j)) (fun e => x9 (ix2 e 0)) (fun e => x10 (ix1 e)))
    (pay8_eq v3 x9 x10) (pay9_eq v3 x9 x10) (pay10_eq v3 x9 x10) (pay11_eq v3 x9 x10) (pay13_eq v3 x9 x10)
    (pay14_eq v3 x9 x10) (pay15_eq v3 x9 x10) (pay16_eq v3 x9 x10) (pay17_eq v3 x9 x10)
    (fun j => by rw [pay18_eq, pay19_eq]; rfl) n o).trans ?_
  rw [pay6_eq]
  rfl

/-- The embedding of the graph whose blocks are staged: the value stored to the embedding window, at `(0, n, o)`. -/
theorem out18_eq (x0 : Vec Ideal S1x1024x1 .f32) (x1 x2 : Vec Ideal S1x1024x1024 .f32) (x3 : Vec Ideal S10x1 .f32) (x4 : Vec Ideal S10 .f32) (x5 : Vec Ideal S10x10 .f32) (x6 : Vec Ideal S10 .f32) (x7 : Vec Ideal S10x10 .f32) (x8 : Vec Ideal S10 .f32) (x9 : Vec Ideal S10x1 .f32) (x10 : Vec Ideal S10 .f32) (x11 : Vec Ideal S1x20 .f32) (x12 : Vec Ideal S1 .f32) (x13 : Vec Ideal S10x10 .f32) (x14 : Vec Ideal S10 .f32) (x15 : Vec Ideal S10x10 .f32) (x16 : Vec Ideal S10 .f32) (n : Fin 1024) (o : Fin 10) :
    out0_18 (F := Ideal) x0 x1 x2 x3 x4 x5 x6 x7 x8 x9 x10 x11 x12 x13 x14 x15 x16 (ix3 0 n o)
      = Cert.Gnn.embOf (fun n => x0 (ix3 0 n 0)) (fun p q => x1 (ix3 0 p q)) (fun p q => x2 (ix3 0 p q))
          x3 x4 x5 x6 x7 x8 x9 x10 n o := by
  unfold out0_18
  rw [View.canon_unit_zero hz3]
  simp only [View.ld_unit_zero (S := S1x1024x1) hz3, View.ld_unit_zero (S := S1x1024x1024) hz3, View.ld_unit_zero (S := S10x1) hz2,
    View.ld_unit_zero (S := S10) hz1, View.ld_unit_zero (S := S10x10) hz2]
  refine (pay3_eq _ _ _ _ n o).trans ?_
  refine (pay1_eq _ _ _ _ n o).trans ?_
  have hB := pay20_eq (k0_pay4 x1) x0 x3 x4 x7 x8 x9 x10
  rw [hB n o, Finset.sum_congr rfl fun e _ => congrArg (· * x5 (ix2 o e)) (pay21_of (k0_pay4 x1) (k0_pay5 x2) x7 x8 x5 x6 _ _ _ _ _ _ _ _ _ _ _ _ _ hB n e)]
  simp only [pay4_apply, pay5_apply]
  rfl

/-- The readout of the graph whose blocks are staged: the value stored to the readout window, at `(0, n, 0)`. -/
theorem out17_eq (x0 : Vec Ideal S1x1024x1 .f32) (x1 x2 : Vec Ideal S1x1024x1024 .f32) (x3 : Vec Ideal S10x1 .f32) (x4 : Vec Ideal S10 .f32) (x5 : Vec Ideal S10x10 .f32) (x6 : Vec Ideal S10 .f32) (x7 : Vec Ideal S10x10 .f32) (x8 : Vec Ideal S10 .f32) (x9 : Vec Ideal S10x1 .f32) (x10 : Vec Ideal S10 .f32) (x11 : Vec Ideal S1x20 .f32) (x12 : Vec Ideal S1 .f32) (x13 : Vec Ideal S10x10 .f32) (x14 : Vec Ideal S10 .f32) (x15 : Vec Ideal S10x10 .f32) (x16 : Vec Ideal S10 .f32) (n : Fin 1024) :
    out0_17 (F := Ideal) x0 x1 x2 x3 x4 x5 x6 x7 x8 x9 x10 x11 x12 x13 x14 x15 x16 (ix3 0 n 0)
      = Cert.Gnn.qOf (fun n => x0 (ix3 0 n 0)) (fun p q => x1 (ix3 0 p q)) (fun p q => x2 (ix3 0 p q))
          x3 x4 x5 x6 x7 x8 x9 x10 x11 x12 x13 x14 x15 x16 n := by
  unfold out0_17
  rw [View.canon_unit_zero hz3]
  simp only [View.ld_unit_zero (S := S1x1024x1) hz3, View.ld_unit_zero (S := S1x1024x1024) hz3, View.ld_unit_zero (S := S10x1) hz2,
    View.ld_unit_zero (S := S10) hz1, View.ld_unit_zero (S := S10x10) hz2, View.ld_unit_zero (S := S1x20) hz2, View.ld_unit_zero (S := S1) hz1]
  have hB := pay20_eq (k0_pay4 x1) x0 x3 x4 x7 x8 x9 x10
  refine (pay2_of x6 x13 x14 x15 x16 x11 x12 _ _ _
    (Cert.Gnn.embOf (fun n => x0 (ix3 0 n 0)) (fun p q => x1 (ix3 0 p q)) (fun p q => x2 (ix3 0 p q)) x3 x4 x5 x6 x7 x8 x9 x10)
    (fun n' o' => ?_) n).trans rfl
  refine (pay1_eq _ _ _ _ n' o').trans ?_
  rw [hB n' o', Finset.sum_congr rfl fun e _ => congrArg (· * x5 (ix2 o' e)) (pay21_of (k0_pay4 x1) (k0_pay5 x2) x7 x8 x5 x6 _ _ _ _ _ _ _ _ _ _ _ _ _ hB n' e)]
  simp only [pay4_apply, pay5_apply]
  rfl

end Cert.KernelIdeal.Out

end
-- ==== Proof.KRun.lean ====
/-
  The kernel's run, read: what its two result arrays hold at the end.

  The program broadcasts the features `[8, 1024]` to `[8, 1024, 1]`, runs the grid of 8 points, and reshapes the
  readout array `[8, 1024, 1]` to `[8, 1024]`. Point `t` stages graph `t`'s slabs and the whole parameter arrays,
  and what it writes back is graph `t`'s slab of two whole-array functions of the arguments: the embedding
  array and the readout array of the specification. The 8 slabs cover both result arrays, so the arrays end at
  those functions; the reshape then reads the readout array's entry `(b, n, 0)` at `(b, n)`.
-/
import proofs.«129381_j87771951661882_1_alg».proof.Proof.Gen.KernelIdeal.Frame
import proofs.«129381_j87771951661882_1_alg».proof.Proof.Spec
import proofs.«129381_j87771951661882_1_alg».proof.Proof.KBlocks
import proofs.«129381_j87771951661882_1_alg».proof.Proof.KOut
import Idealize.ShloMosaic.Lib.Pipeline.Value
import Idealize.ShloMosaic.Lib.ValueIdx
import Idealize.ShloMosaic.Lib.StableHlo.Run

noncomputable section

namespace Cert.KernelIdeal.RunVal

open Idealize.ShloMosaic Idealize.ShloMosaic.ValueIdx Idealize.SL.Sem Idealize.ShloMosaic.StableHlo Cert.KernelIdeal Cert.KernelIdeal.Gen
open Cert.KernelIdeal.Blocks Cert.KernelIdeal.Out

variable (m : (ℓ : Loc nD τ sig) → Buf (Elt Ideal) ℓ) (ρ : Dev nD → PrngReg)

/-! ## The host operation before the region -/

/-- The array the feature window stages is the features with a unit axis appended. -/
theorem V_v0 (c : Dev nD) :
    (V m c main_v0 : S8x1024x1.Idx → EReal)
      = broadcastInDim S8x1024x1 ![0, 1] bcast_S8x1024_S8x1024x1_0_1 (m ((c.tc : Thread nD τ).loc main_arg0)) := by
  show StableHlo.after hostOps0 (fun b => m (c, b)) (Proc.devRef .tc main_v0) = _
  after_results

/-- Its entry `(b, n, 0)` is the feature of node `n` of graph `b`. -/
theorem V_v0_apply (c : Dev nD) (b : Fin 8) (n : Fin 1024) :
    (V m c main_v0 : S8x1024x1.Idx → EReal) (ix3 b n 0) = m ((c.tc : Thread nD τ).loc main_arg0) (ix2 b n) := by
  rw [V_v0]
  exact broadcastInDim_apply _ bcast_S8x1024_S8x1024x1_0_1 _ (ix3 b n 0) (ix2 b n) (fun a => match a with
    | ⟨0, _⟩ => by show b.val = if (8 : Nat) = 1 then 0 else b.val; rw [if_neg (by decide)]
    | ⟨1, _⟩ => by show n.val = if (1024 : Nat) = 1 then 0 else n.val; rw [if_neg (by decide)])

/-! ## The two result arrays of the region -/

/-- The embedding array of the specification, of the arguments as launched. -/
abbrev embA (c : Dev nD) : S8x1024x10.Idx → EReal := Cert.Gnn.embArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The readout array of the specification, of the arguments as launched. -/
abbrev qA (c : Dev nD) : S8x1024.Idx → EReal := Cert.Gnn.qArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-- The same with a trailing unit axis: what the region's readout array holds. -/
def q3 (c : Dev nD) : S8x1024x1.Idx → EReal := fun i => qA m c (ix2 (i 0) (i 1))

set_option maxHeartbeats 1000000 in
/-- What point `t` writes back to the embedding array is graph `t`'s slab of the embedding array. -/
theorem flushed18_eq (c : Dev nD) (t : Fin cfg0.N) :
    (dats m 0 c).flushed 18 t = ((cfg0.win 18).blk t).view.read (Elt Ideal) (embA m c) := by
  show (cfg0.win 18).cut (grid0.coords t) ((dats m 0 c).after 18 t) = _
  rw [after0_18]
  funext y
  obtain ⟨u, n, o, rfl⟩ : ∃ (u : Fin 1) (n : Fin 1024) (o : Fin 10), y = ix3 u n o := ⟨y 0, y 1, y 2, eq_ix3 y⟩
  obtain rfl : u = 0 := Subsingleton.elim _ _
  show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 n o) = embA m c (((cfg0.win 18).blk t).view.emb (ix3 0 n o))
  rw [emb18]
  refine (out18_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) n o).trans ?_
  have e0 : (fun n : Fin 1024 => (iblk m c 0 t : S1x1024x1.Idx → EReal) (ix3 0 n 0)) = Cert.Gnn.feat (m ((c.tc : Thread nD τ).loc main_arg0)) (gb t) :=
    funext fun n => (read0 (V m c main_v0) t n).trans (V_v0_apply m c (gb t) n)
  have e1 : (fun p q : Fin 1024 => (iblk m c 1 t : S1x1024x1024.Idx → EReal) (ix3 0 p q)) = Cert.Gnn.pair (m ((c.tc : Thread nD τ).loc main_arg1)) (gb t) :=
    funext fun p => funext fun q => (read1 (V m c main_arg1) t p q).trans (congrFun (V_main_arg1 m c) _)
  have e2 : (fun p q : Fin 1024 => (iblk m c 2 t : S1x1024x1024.Idx → EReal) (ix3 0 p q)) = Cert.Gnn.pair (m ((c.tc : Thread nD τ).loc main_arg2)) (gb t) :=
    funext fun p => funext fun q => (read2 (V m c main_arg2) t p q).trans (congrFun (V_main_arg2 m c) _)
  have e3 : (iblk m c 3 t : S10x1.Idx → EReal) = (m ((c.tc : Thread nD τ).loc main_arg3)) :=
    (read3 (V m c main_arg3) t).trans (V_main_arg3 m c)
  have e4 : (iblk m c 4 t : S10.Idx → EReal) = (m ((c.tc : Thread nD τ).loc main_arg4)) :=
    (read4 (V m c main_arg4) t).trans (V_main_arg4 m c)
  have e5 : (iblk m c 5 t : S10x10.Idx → EReal) = (m ((c.tc : Thread nD τ).loc main_arg5)) :=
    (read5 (V m c main_arg5) t).trans (V_main_arg5 m c)
  have e6 : (iblk m c 6 t : S10.Idx → EReal) = (m ((c.tc : Thread nD τ).loc main_arg6)) :=
    (read6 (V m c main_arg6) t).trans (V_main_arg6 m c)
  have e7 : (iblk m c 7 t : S10x10.Idx → EReal) = (m ((c.tc : Thread nD τ).loc main_arg7)) :=
    (read7 (V m c main_arg7) t).trans (V_main_arg7 m c)
  have e8 : (iblk m c 8 t : S10.Idx → EReal) = (m ((c.tc : Thread nD τ).loc main_arg8)) :=
    (read8 (V m c main_arg8) t).trans (V_main_arg8 m c)
  have e9 : (iblk m c 9 t : S10x1.Idx → EReal) = (m ((c.tc : Thread nD τ).loc main_arg9)) :=
    (read9 (V m c main_arg9) t).trans (V_main_arg9 m c)
  have e10 : (iblk m c 10 t : S10.Idx → EReal) = (m ((c.tc : Thread nD τ).loc main_arg10)) :=
    (read10 (V m c main_arg10) t).trans (V_main_arg10 m c)
  rw [e0, e1, e2, e3, e4, e5, e6, e7, e8, e9, e10]
  rfl

set_option maxHeartbeats 1000000 in
/-- What point `t` writes back to the readout array is graph `t`'s slab of the readout array. -/
theorem flushed17_eq (c : Dev nD) (t : Fin cfg0.N) :
    (dats m 0 c).flushed 17 t = ((cfg0.win 17).blk t).view.read (Elt Ideal) (q3 m c) := by
  show (cfg0.win 17).cut (grid0.coords t) ((dats m 0 c).after 17 t) = _
  rw [after0_17]
  funext y
  obtain ⟨u, n, u', rfl⟩ : ∃ (u : Fin 1) (n : Fin 1024) (u' : Fin 1), y = ix3 u n u' := ⟨y 0, y 1, y 2, eq_ix3 y⟩
  obtain rfl : u = 0 := Subsingleton.elim _ _
  obtain rfl : u' = 0 := Subsingleton.elim _ _
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 n 0) = q3 m c (((cfg0.win 17).blk t).view.emb (ix3 0 n 0))
  rw [emb17]
  refine (out17_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) n).trans ?_
  have e0 : (fun n : Fin 1024 => (iblk m c 0 t : S1x1024x1.Idx → EReal) (ix3 0 n 0)) = Cert.Gnn.feat (m ((c.tc : Thread nD τ).loc main_arg0)) (gb t) :=
    funext fun n => (read0 (V m c main_v0) t n).trans (V_v0_apply m c (gb t) n)
  have e1 : (fun p q : Fin 1024 => (iblk m c 1 t : S1x1024x1024.Idx → EReal) (ix3 0 p q)) = Cert.Gnn.pair (m ((c.tc : Thread nD τ).loc main_arg1)) (gb t) :=
    funext fun p => funext fun q => (read1 (V m c main_arg1) t p q).trans (congrFun (V_main_arg1 m c) _)
  have e2 : (fun p q : Fin 1024 => (iblk m c 2 t : S1x1024x1024.Idx → EReal) (ix3 0 p q)) = Cert.Gnn.pair (m ((c.tc : Thread nD τ).loc main_arg2)) (gb t) :=
    funext fun p => funext fun q => (read2 (V m c main_arg2) t p q).trans (congrFun (V_main_arg2 m c) _)
  have e3 : (iblk m c 3 t : S10x1.Idx → EReal) = (m ((c.tc : Thread nD τ).loc main_arg3)) :=
    (read3 (V m c main_arg3) t).trans (V_main_arg3 m c)
  have e4 : (iblk m c 4 t : S10.Idx → EReal) = (m ((c.tc : Thread nD τ).loc main_arg4)) :=
    (read4 (V m c main_arg4) t).trans (V_main_arg4 m c)
  have e5 : (iblk m c 5 t : S10x10.Idx → EReal) = (m ((c.tc : Thread nD τ).loc main_arg5)) :=
    (read5 (V m c main_arg5) t).trans (V_main_arg5 m c)
  have e6 : (iblk m c 6 t : S10.Idx → EReal) = (m ((c.tc : Thread nD τ).loc main_arg6)) :=
    (read6 (V m c main_arg6) t).trans (V_main_arg6 m c)
  have e7 : (iblk m c 7 t : S10x10.Idx → EReal) = (m ((c.tc : Thread nD τ).loc main_arg7)) :=
    (read7 (V m c main_arg7) t).trans (V_main_arg7 m c)
  have e8 : (iblk m c 8 t : S10.Idx → EReal) = (m ((c.tc : Thread nD τ).loc main_arg8)) :=
    (read8 (V m c main_arg8) t).trans (V_main_arg8 m c)
  have e9 : (iblk m c 9 t : S10x1.Idx → EReal) = (m ((c.tc : Thread nD τ).loc main_arg9)) :=
    (read9 (V m c main_arg9) t).trans (V_main_arg9 m c)
  have e10 : (iblk m c 10 t : S10.Idx → EReal) = (m ((c.tc : Thread nD τ).loc main_arg10)) :=
    (read10 (V m c main_arg10) t).trans (V_main_arg10 m c)
  have e11 : (iblk m c 11 t : S1x20.Idx → EReal) = (m ((c.tc : Thread nD τ).loc main_arg11)) :=
    (read11 (V m c main_arg11) t).trans (V_main_arg11 m c)
  have e12 : (iblk m c 12 t : S1.Idx → EReal) = (m ((c.tc : Thread nD τ).loc main_arg12)) :=
    (read12 (V m c main_arg12) t).trans (V_main_arg12 m c)
  have e13 : (iblk m c 13 t : S10x10.Idx → EReal) = (m ((c.tc : Thread nD τ).loc main_arg13)) :=
    (read13 (V m c main_arg13) t).trans (V_main_arg13 m c)
  have e14 : (iblk m c 14 t : S10.Idx → EReal) = (m ((c.tc : Thread nD τ).loc main_arg14)) :=
    (read14 (V m c main_arg14) t).trans (V_main_arg14 m c)
  have e15 : (iblk m c 15 t : S10x10.Idx → EReal) = (m ((c.tc : Thread nD τ).loc main_arg15)) :=
    (read15 (V m c main_arg15) t).trans (V_main_arg15 m c)
  have e16 : (iblk m c 16 t : S10.Idx → EReal) = (m ((c.tc : Thread nD τ).loc main_arg16)) :=
    (read16 (V m c main_arg16) t).trans (V_main_arg16 m c)
  rw [e0, e1, e2, e3, e4, e5, e6, e7, e8, e9, e10, e11, e12, e13, e14, e15, e16]
  rfl

/-- The embedding array after the run: the 8 slabs cover it. -/
theorem final18 (c : Dev nD) : (dats m 0 c).arrAt 18 cfg0.N = embA m c :=
  (dats m 0 c).arrAt_eq_of_cover 18 (embA m c) (fun t _ => flushed18_eq m c t) cover18

/-- The region's readout array after the run. -/
theorem final17 (c : Dev nD) : (dats m 0 c).arrAt 17 cfg0.N = q3 m c :=
  (dats m 0 c).arrAt_eq_of_cover 17 (q3 m c) (fun t _ => flushed17_eq m c t) cover17

/-! ## The host operation after the region -/

/-- The program's first result is the reshape of the region's readout array. -/
theorem tail_v2 (c : Dev nD) :
    (Pipeline.afterTail₀ cfgs (dats m) 0 (V0 m) [hostOps1] c main_v2 : S8x1024.Idx → EReal)
      = shapeCast S8x1024 ((dats m 0 c).arrAt 17 cfg0.N : S8x1024x1.Idx → EReal) shapeCasts_S8x1024x1_S8x1024 := by
  unfold Pipeline.afterTail₀
  show StableHlo.after hostOps1 _ (Proc.devRef .tc main_v2) = _
  after_results
  have e : (Pipeline.withArrays spec0 c (V0 m c) (fun w => (dats m 0 c).arrAt w cfg0.N) (Proc.devRef .tc main_v1_0) : S8x1024x1.Idx → EReal)
      = (dats m 0 c).arrAt 17 cfg0.N := Pipeline.withArrays_arr spec0 launch0.win.arr_inj c _ _ 17
  exact congrArg (fun A : S8x1024x1.Idx → EReal => shapeCast S8x1024 A shapeCasts_S8x1024x1_S8x1024) e

/-- It is the readout array of the specification. -/
theorem v2_eq (c : Dev nD) :
    (Pipeline.afterTail₀ cfgs (dats m) 0 (V0 m) [hostOps1] c main_v2 : S8x1024.Idx → EReal) = qA m c := by
  rw [tail_v2, final17]
  funext i
  obtain ⟨b, n, rfl⟩ : ∃ (b : Fin 8) (n : Fin 1024), i = ix2 b n := ⟨i 0, i 1, eq_ix2 i⟩
  exact shapeCast_apply (q3 m c) shapeCasts_S8x1024x1_S8x1024 (ix2 b n) (ix3 b n 0)
    (by rewrite [Shape.rowMajor_val_three, Shape.rowMajor_val_two]; show (b.val * 1024 + n.val) * 1 + 0 = b.val * 1024 + n.val; omega)

/-! ## The run -/

set_option maxHeartbeats 4000000 in
/-- Every weakly fair execution of the kernel's program terminates with its two results at the readout array and the
    embedding array of the specification, and its arguments unchanged. -/
theorem run : θ_run defs (onTc (τ := τ) (main (F := Ideal))) ⟨m, fun _ => 0, ρ⟩ (fun r => ∀ c : Dev nD,
      r.2.mem ((c.tc : Thread nD τ).loc main_v2) = qA m c
      ∧ r.2.mem ((c.tc : Thread nD τ).loc main_v1_1) = embA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨
      ((h c).2 main_v2 (Pipeline.mem_restRefs_of main_v2 (by decide) (by decide))).trans (v2_eq m c),
      ((h c).1 18).trans (final18 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c)))⟩) (run_main m ρ)

end Cert.KernelIdeal.RunVal

end
-- ==== Proof.RefBase.lean ====
/-
  The embedding-independent part of the graph network's update, as the reference program computes it.

  The reference builds, for all 8 graphs at once, three arrays of shape [8, 1024, 10]:

  * the feature map: node n's feature times a column of weights plus a bias (broadcasts, one product, one sum);
  * the edge map: the weight of every ordered pair (i, j), times a column of weights plus a bias, rectified
    against zero in a [8, 1024, 1024, 10] array and then summed over the SOURCE node i (the array's dimension 1),
    starting from the constant zero;
  * the affine image of the edge map: a contraction of its 10 channels with the rows of a 10 x 10 matrix, plus a
    broadcast bias.

  Read at the index (b, n, o), each of them is the corresponding function of the specification, taken at graph b:
  the first is `sel`, the second `edge`, the third `lin edge`, and their sum is `base`. Every step is an unfolding
  of one operation at one index; the only algebra is `0 + s = s` for the sum's initial value.
-/
import proofs.«129381_j87771951661882_1_alg».proof.Proof.Gen.ReferenceIdeal.Read
import proofs.«129381_j87771951661882_1_alg».proof.Proof.Spec
import Idealize.ShloMosaic.Lib.Pipeline.Value
import Idealize.ShloMosaic.Lib.ValueIdx
import Idealize.ShloMosaic.PureOps.Ideal.Laws

noncomputable section

namespace Cert.ReferenceIdeal.RefBase

open Idealize.ShloMosaic Idealize.ShloMosaic.ValueIdx Cert.ReferenceIdeal Cert.ReferenceIdeal.Read

/-- The feature map at (b, n, e): the feature of node n of graph b times the e-th weight, plus the e-th bias. -/
theorem v8_at (x0 : (⟨S8x1024, .f32⟩ : BufTy).Contents (Elt Ideal)) (x3 : (⟨S10x1, .f32⟩ : BufTy).Contents (Elt Ideal)) (x4 : (⟨S10, .f32⟩ : BufTy).Contents (Elt Ideal))
    (b : Fin 8) (n : Fin 1024) (e : Fin 10) :
    val_main_v8 (F := Ideal) x0 x3 x4 (ix3 b n e) = x0 (ix2 b n) * x3 (ix2 e 0) + x4 (ix1 e) := by
  rw [val_main_v8_apply, val_main_v5_apply, val_main_v3_apply, val_main_v0_apply, val_main_v4_apply,
    val_main_v2_apply, val_main_v1_apply, val_main_v7_apply, val_main_v6_apply]
  have h0 : idx_main_v0 (idx_main_v3 (ix3 b n e)) = ix2 b n :=
    funext fun a => Fin.ext (by match a with | ⟨0, _⟩ => rfl | ⟨1, _⟩ => rfl)
  have h1 : idx_main_v1 (idx_main_v2 (idx_main_v4 (ix3 b n e))) = ix2 e 0 :=
    funext fun a => Fin.ext (by match a with | ⟨0, _⟩ => exact Nat.div_one _ | ⟨1, _⟩ => rfl)
  have h2 : idx_main_v6 (idx_main_v7 (ix3 b n e)) = ix1 e :=
    funext fun a => Fin.ext (by match a with | ⟨0, _⟩ => rfl)
  rw [h0, h1, h2]
  rfl

/-- The rectified edge term at (b, i, j, e): the weight of the pair (i, j) of graph b times the e-th weight plus the
    e-th bias, against zero. -/
theorem v18_at (x1 : (⟨S8x1024x1024, .f32⟩ : BufTy).Contents (Elt Ideal)) (x9 : (⟨S10x1, .f32⟩ : BufTy).Contents (Elt Ideal)) (x10 : (⟨S10, .f32⟩ : BufTy).Contents (Elt Ideal))
    (b : Fin 8) (i j : Fin 1024) (e : Fin 10) :
    val_main_v18 (F := Ideal) x1 x9 x10 (ix4 b i j e) = max (x1 (ix3 b i j) * x9 (ix2 e 0) + x10 (ix1 e)) 0 := by
  rw [val_main_v18_apply, val_main_v17_apply, val_main_v14_apply, val_main_v12_apply, val_main_v9_apply,
    val_main_v13_apply, val_main_v11_apply, val_main_v10_apply, val_main_v16_apply, val_main_v15_apply,
    val_main_call0_v0_apply, val_main_call0_cst_apply]
  have h0 : idx_main_v9 (idx_main_v12 (ix4 b i j e)) = ix3 b i j :=
    funext fun a => Fin.ext (by match a with | ⟨0, _⟩ => rfl | ⟨1, _⟩ => rfl | ⟨2, _⟩ => rfl)
  have h1 : idx_main_v10 (idx_main_v11 (idx_main_v13 (ix4 b i j e))) = ix2 e 0 :=
    funext fun a => Fin.ext (by match a with | ⟨0, _⟩ => exact Nat.div_one _ | ⟨1, _⟩ => rfl)
  have h2 : idx_main_v15 (idx_main_v16 (ix4 b i j e)) = ix1 e :=
    funext fun a => Fin.ext (by match a with | ⟨0, _⟩ => rfl)
  rw [h0, h1, h2]
  show max (x1 (ix3 b i j) * x9 (ix2 e 0) + x10 (ix1 e)) (Ideal.ofBits .f32 0x00000000#32) = _
  rw [Ideal.ofBits_zero_f32]

/-- The edge map at (b, j, e): the rectified edge terms into node j, summed over the source nodes. -/
theorem v19_at (x1 : (⟨S8x1024x1024, .f32⟩ : BufTy).Contents (Elt Ideal)) (x9 : (⟨S10x1, .f32⟩ : BufTy).Contents (Elt Ideal)) (x10 : (⟨S10, .f32⟩ : BufTy).Contents (Elt Ideal))
    (b : Fin 8) (j : Fin 1024) (e : Fin 10) :
    val_main_v19 (F := Ideal) x1 x9 x10 (ix3 b j e)
      = Cert.Gnn.edge (Cert.Gnn.pair x1 b) (fun e => x9 (ix2 e 0)) (fun e => x10 (ix1 e)) j e := by
  rw [val_main_v19_apply, val_main_cst_apply]
  show Ideal.ofBits .f32 0x00000000#32 + _ = _
  rw [Ideal.ofBits_zero_f32, zero_add]
  unfold Cert.Gnn.edge
  refine Finset.sum_congr rfl fun i _ => ?_
  have hi : idx_main_v19 (ix3 b j e) i = ix4 b i j e :=
    funext fun a => Fin.ext (by match a with | ⟨0, _⟩ => rfl | ⟨1, _⟩ => rfl | ⟨2, _⟩ => rfl | ⟨3, _⟩ => rfl)
  rw [hi, v18_at]

/-- The affine image of the edge map at (b, n, o). -/
theorem v23_at (x1 : (⟨S8x1024x1024, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal))
    (b : Fin 8) (n : Fin 1024) (o : Fin 10) :
    val_main_v23 (F := Ideal) x1 x7 x8 x9 x10 (ix3 b n o)
      = Cert.Gnn.lin (Cert.Gnn.edge (Cert.Gnn.pair x1 b) (fun e => x9 (ix2 e 0)) (fun e => x10 (ix1 e)))
          (fun o e => x7 (ix2 o e)) (fun e => x8 (ix1 e)) n o := by
  rw [val_main_v23_apply, val_main_v20_apply, val_main_v22_apply, val_main_v21_apply]
  have h2 : idx_main_v21 (idx_main_v22 (ix3 b n o)) = ix1 o :=
    funext fun a => Fin.ext (by match a with | ⟨0, _⟩ => rfl)
  rw [h2]
  unfold Cert.Gnn.lin
  show (∑ k : Fin 10, _) + _ = _
  refine congrArg (· + x8 (ix1 o)) (Finset.sum_congr rfl fun k _ => ?_)
  have hl : lidx_main_v20 (ix3 b n o) k = ix3 b n k :=
    funext fun a => Fin.ext (by match a with | ⟨0, _⟩ => rfl | ⟨1, _⟩ => rfl | ⟨2, _⟩ => rfl)
  have hr : ridx_main_v20 (ix3 b n o) k = ix2 o k :=
    funext fun a => Fin.ext (by match a with | ⟨0, _⟩ => rfl | ⟨1, _⟩ => rfl)
  rw [hl, hr, v19_at]

/-- The reference's embedding-independent part at (b, n, o) is the specification's `base` of graph b. -/
theorem ref_base (x0 : (⟨S8x1024, .f32⟩ : BufTy).Contents (Elt Ideal)) (x1 : (⟨S8x1024x1024, .f32⟩ : BufTy).Contents (Elt Ideal)) (x3 : (⟨S10x1, .f32⟩ : BufTy).Contents (Elt Ideal)) (x4 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal))
    (b : Fin 8) (n : Fin 1024) (o : Fin 10) :
    val_main_v24 (F := Ideal) x0 x1 x3 x4 x7 x8 x9 x10 (ix3 b n o)
      = Cert.Gnn.base (Cert.Gnn.feat x0 b) (Cert.Gnn.pair x1 b) (fun e => x3 (ix2 e 0)) (fun e => x4 (ix1 e))
          (fun e => x9 (ix2 e 0)) (fun e => x10 (ix1 e)) (fun o e => x7 (ix2 o e)) (fun e => x8 (ix1 e)) n o := by
  rw [val_main_v24_apply, v8_at, v23_at]
  rfl

end Cert.ReferenceIdeal.RefBase

end
-- ==== Proof.RefStep.lean ====
/-
  The reference program's embedding, read at one index.

  After the embedding-independent stage (operation %24, an array over graphs, nodes and channels, here entering only
  through its values `B b n o`), the reference updates an embedding three times, starting from the zero array. One
  update takes the current embedding `E` of graph `b` and forms, at node `n` and channel `o`,

      max (B b n o + ((∑ e, (∑ j, A b n j * E j e) * P o e) + c o)) 0,

  where `A` is the adjacency array (a contraction over the source nodes `j`, batched over the graphs), `P` the
  10 × 10 matrix contracted over its second axis (so it acts transposed), `c` the bias vector spread over graphs and
  nodes, and the maximum is taken against an array of zeros. That is the specification's `step` at graph `b`'s
  adjacency; three of them from zero are its `emb`.

  The proof reads each operation at an index built from coordinates: an elementwise sum or maximum reads its operands
  at the same index, a contraction is the sum over the contracted coordinate of the products of its operands at the
  indices with that coordinate put in place, a spread vector is read at the channel coordinate, and the constant
  arrays are zero. Nothing is distributed, cancelled or simplified: the inner sum of the first update keeps its
  products with zero. The three updates are the same argument; each uses the previous one under the two sums.
-/
import proofs.«129381_j87771951661882_1_alg».proof.Proof.Gen.ReferenceIdeal.Read
import proofs.«129381_j87771951661882_1_alg».proof.Proof.Spec
import Idealize.ShloMosaic.Lib.Pipeline.Value
import Idealize.ShloMosaic.Lib.ValueIdx
import Idealize.ShloMosaic.PureOps.Ideal.Laws

noncomputable section

namespace Cert.ReferenceIdeal.RefStep

open Idealize.ShloMosaic Idealize.ShloMosaic.ValueIdx Cert.ReferenceIdeal Cert.ReferenceIdeal.Read

/-! ## The constants: the zero embedding and the three rectifier floors -/

/-- The initial embedding is zero at every index. -/
theorem zero25 (i : S8x1024x10.Idx) : val_main_v25 (F := Ideal) i = (0 : EReal) := by
  rw [val_main_v25_apply, val_main_cst_0_apply]
  exact Ideal.ofBits_zero_f32

/-- The floor of rectifier 1 is zero at every index. -/
theorem relu1_zero (i : S8x1024x10.Idx) : val_main_call1_v0 (F := Ideal) i = (0 : EReal) := by
  rw [val_main_call1_v0_apply, val_main_call1_cst_apply]
  exact Ideal.ofBits_zero_f32

/-- The floor of rectifier 2 is zero at every index. -/
theorem relu2_zero (i : S8x1024x10.Idx) : val_main_call2_v0 (F := Ideal) i = (0 : EReal) := by
  rw [val_main_call2_v0_apply, val_main_call2_cst_apply]
  exact Ideal.ofBits_zero_f32

/-- The floor of rectifier 3 is zero at every index. -/
theorem relu3_zero (i : S8x1024x10.Idx) : val_main_call3_v0 (F := Ideal) i = (0 : EReal) := by
  rw [val_main_call3_v0_apply, val_main_call3_cst_apply]
  exact Ideal.ofBits_zero_f32

/-! ## The bias of each update: the vector `x6` spread over graphs and nodes -/

theorem bias29 (x6 : (⟨S10, .f32⟩ : BufTy).Contents (Elt Ideal)) (b : Fin 8) (n : Fin 1024) (o : Fin 10) :
    val_main_v29 (F := Ideal) x6 (ix3 b n o) = x6 (ix1 o) := by
  rw [val_main_v29_apply, val_main_v28_apply]
  exact congrArg x6 (funext fun a => Fin.ext (by match a with | ⟨0, _⟩ => rfl))

theorem bias36 (x6 : (⟨S10, .f32⟩ : BufTy).Contents (Elt Ideal)) (b : Fin 8) (n : Fin 1024) (o : Fin 10) :
    val_main_v36 (F := Ideal) x6 (ix3 b n o) = x6 (ix1 o) := by
  rw [val_main_v36_apply, val_main_v35_apply]
  exact congrArg x6 (funext fun a => Fin.ext (by match a with | ⟨0, _⟩ => rfl))

theorem bias43 (x6 : (⟨S10, .f32⟩ : BufTy).Contents (Elt Ideal)) (b : Fin 8) (n : Fin 1024) (o : Fin 10) :
    val_main_v43 (F := Ideal) x6 (ix3 b n o) = x6 (ix1 o) := by
  rw [val_main_v43_apply, val_main_v42_apply]
  exact congrArg x6 (funext fun a => Fin.ext (by match a with | ⟨0, _⟩ => rfl))

/-! ## The operand indices of the six contractions, at an index given by coordinates -/

theorem lidx27_at (b : Fin 8) (n : Fin 1024) (o e : Fin 10) : lidx_main_v27 (ix3 b n o) e = ix3 b n e :=
  funext fun a => Fin.ext (by match a with | ⟨0, _⟩ => rfl | ⟨1, _⟩ => rfl | ⟨2, _⟩ => rfl)
theorem ridx27_at (b : Fin 8) (n : Fin 1024) (o e : Fin 10) : ridx_main_v27 (ix3 b n o) e = ix2 o e :=
  funext fun a => Fin.ext (by match a with | ⟨0, _⟩ => rfl | ⟨1, _⟩ => rfl)
theorem lidx26_at (b : Fin 8) (n : Fin 1024) (e : Fin 10) (j : Fin 1024) : lidx_main_v26 (ix3 b n e) j = ix3 b n j :=
  funext fun a => Fin.ext (by match a with | ⟨0, _⟩ => rfl | ⟨1, _⟩ => rfl | ⟨2, _⟩ => rfl)
theorem ridx26_at (b : Fin 8) (n : Fin 1024) (e : Fin 10) (j : Fin 1024) : ridx_main_v26 (ix3 b n e) j = ix3 b j e :=
  funext fun a => Fin.ext (by match a with | ⟨0, _⟩ => rfl | ⟨1, _⟩ => rfl | ⟨2, _⟩ => rfl)

theorem lidx34_at (b : Fin 8) (n : Fin 1024) (o e : Fin 10) : lidx_main_v34 (ix3 b n o) e = ix3 b n e :=
  funext fun a => Fin.ext (by match a with | ⟨0, _⟩ => rfl | ⟨1, _⟩ => rfl | ⟨2, _⟩ => rfl)
theorem ridx34_at (b : Fin 8) (n : Fin 1024) (o e : Fin 10) : ridx_main_v34 (ix3 b n o) e = ix2 o e :=
  funext fun a => Fin.ext (by match a with | ⟨0, _⟩ => rfl | ⟨1, _⟩ => rfl)
theorem lidx33_at (b : Fin 8) (n : Fin 1024) (e : Fin 10) (j : Fin 1024) : lidx_main_v33 (ix3 b n e) j = ix3 b n j :=
  funext fun a => Fin.ext (by match a with | ⟨0, _⟩ => rfl | ⟨1, _⟩ => rfl | ⟨2, _⟩ => rfl)
theorem ridx33_at (b : Fin 8) (n : Fin 1024) (e : Fin 10) (j : Fin 1024) : ridx_main_v33 (ix3 b n e) j = ix3 b j e :=
  funext fun a => Fin.ext (by match a with | ⟨0, _⟩ => rfl | ⟨1, _⟩ => rfl | ⟨2, _⟩ => rfl)

theorem lidx41_at (b : Fin 8) (n : Fin 1024) (o e : Fin 10) : lidx_main_v41 (ix3 b n o) e = ix3 b n e :=
  funext fun a => Fin.ext (by match a with | ⟨0, _⟩ => rfl | ⟨1, _⟩ => rfl | ⟨2, _⟩ => rfl)
theorem ridx41_at (b : Fin 8) (n : Fin 1024) (o e : Fin 10) : ridx_main_v41 (ix3 b n o) e = ix2 o e :=
  funext fun a => Fin.ext (by match a with | ⟨0, _⟩ => rfl | ⟨1, _⟩ => rfl)
theorem lidx40_at (b : Fin 8) (n : Fin 1024) (e : Fin 10) (j : Fin 1024) : lidx_main_v40 (ix3 b n e) j = ix3 b n j :=
  funext fun a => Fin.ext (by match a with | ⟨0, _⟩ => rfl | ⟨1, _⟩ => rfl | ⟨2, _⟩ => rfl)
theorem ridx40_at (b : Fin 8) (n : Fin 1024) (e : Fin 10) (j : Fin 1024) : ridx_main_v40 (ix3 b n e) j = ix3 b j e :=
  funext fun a => Fin.ext (by match a with | ⟨0, _⟩ => rfl | ⟨1, _⟩ => rfl | ⟨2, _⟩ => rfl)

/-! ## One update, written out

`step` of the specification at graph `b`'s adjacency, with the matrix `x5` and the bias `x6`, is the rectified
sum of the stage value, the twice-contracted embedding and the bias. -/

theorem step_form (x2 : (⟨S8x1024x1024, .f32⟩ : BufTy).Contents (Elt Ideal)) (x5 : (⟨S10x10, .f32⟩ : BufTy).Contents (Elt Ideal))
    (x6 : (⟨S10, .f32⟩ : BufTy).Contents (Elt Ideal)) (B : Fin 8 → Fin 1024 → Fin 10 → EReal) (E : Fin 1024 → Fin 10 → EReal)
    (b : Fin 8) (n : Fin 1024) (o : Fin 10) :
    Cert.Gnn.step (Cert.Gnn.pair x2 b) (B b) (fun o e => x5 (ix2 o e)) (fun e => x6 (ix1 e)) E n o
      = max (B b n o + ((∑ e : Fin 10, (∑ j : Fin 1024, x2 (ix3 b n j) * E j e) * x5 (ix2 o e)) + x6 (ix1 o))) 0 := rfl

/-! ## The three updates -/

/-- Update 1 of the reference at `(b, n, o)`: one step from the zero embedding. -/
theorem step1_at (x0 : (⟨S8x1024, .f32⟩ : BufTy).Contents (Elt Ideal)) (x1 x2 : (⟨S8x1024x1024, .f32⟩ : BufTy).Contents (Elt Ideal)) (x3 : (⟨S10x1, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal))
    (B : Fin 8 → Fin 1024 → Fin 10 → EReal)
    (hB : ∀ b n o, val_main_v24 (F := Ideal) x0 x1 x3 x4 x7 x8 x9 x10 (ix3 b n o) = B b n o)
    (b : Fin 8) (n : Fin 1024) (o : Fin 10) :
    val_main_v32 (F := Ideal) x0 x1 x2 x3 x4 x5 x6 x7 x8 x9 x10 (ix3 b n o)
      = Cert.Gnn.step (Cert.Gnn.pair x2 b) (B b) (fun o e => x5 (ix2 o e)) (fun e => x6 (ix1 e)) (fun _ _ => (0 : EReal)) n o := by
  rw [step_form, val_main_v32_apply, relu1_zero, val_main_v31_apply, hB, val_main_v30_apply, bias29, val_main_v27_apply]
  refine congrArg (fun s : EReal => max (B b n o + (s + x6 (ix1 o))) 0) (Finset.sum_congr rfl fun e _ => ?_)
  rw [lidx27_at, ridx27_at, val_main_v26_apply]
  refine congrArg (fun s : EReal => s * x5 (ix2 o e)) (Finset.sum_congr rfl fun j _ => ?_)
  rw [lidx26_at, ridx26_at, zero25]

/-- Update 2 of the reference at `(b, n, o)`: one step from the first update. -/
theorem step2_at (x0 : (⟨S8x1024, .f32⟩ : BufTy).Contents (Elt Ideal)) (x1 x2 : (⟨S8x1024x1024, .f32⟩ : BufTy).Contents (Elt Ideal)) (x3 : (⟨S10x1, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal))
    (B : Fin 8 → Fin 1024 → Fin 10 → EReal)
    (hB : ∀ b n o, val_main_v24 (F := Ideal) x0 x1 x3 x4 x7 x8 x9 x10 (ix3 b n o) = B b n o)
    (b : Fin 8) (n : Fin 1024) (o : Fin 10) :
    val_main_v39 (F := Ideal) x0 x1 x2 x3 x4 x5 x6 x7 x8 x9 x10 (ix3 b n o)
      = Cert.Gnn.step (Cert.Gnn.pair x2 b) (B b) (fun o e => x5 (ix2 o e)) (fun e => x6 (ix1 e)) (Cert.Gnn.step (Cert.Gnn.pair x2 b) (B b) (fun o e => x5 (ix2 o e)) (fun e => x6 (ix1 e)) (fun _ _ => (0 : EReal))) n o := by
  rw [step_form, val_main_v39_apply, relu2_zero, val_main_v38_apply, hB, val_main_v37_apply, bias36, val_main_v34_apply]
  refine congrArg (fun s : EReal => max (B b n o + (s + x6 (ix1 o))) 0) (Finset.sum_congr rfl fun e _ => ?_)
  rw [lidx34_at, ridx34_at, val_main_v33_apply]
  refine congrArg (fun s : EReal => s * x5 (ix2 o e)) (Finset.sum_congr rfl fun j _ => ?_)
  rw [lidx33_at, ridx33_at, step1_at x0 x1 x2 x3 x4 x5 x6 x7 x8 x9 x10 B hB]

/-- Update 3 of the reference at `(b, n, o)`: one step from the second update. -/
theorem step3_at (x0 : (⟨S8x1024, .f32⟩ : BufTy).Contents (Elt Ideal)) (x1 x2 : (⟨S8x1024x1024, .f32⟩ : BufTy).Contents (Elt Ideal)) (x3 : (⟨S10x1, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal))
    (B : Fin 8 → Fin 1024 → Fin 10 → EReal)
    (hB : ∀ b n o, val_main_v24 (F := Ideal) x0 x1 x3 x4 x7 x8 x9 x10 (ix3 b n o) = B b n o)
    (b : Fin 8) (n : Fin 1024) (o : Fin 10) :
    val_main_v46 (F := Ideal) x0 x1 x2 x3 x4 x5 x6 x7 x8 x9 x10 (ix3 b n o)
      = Cert.Gnn.step (Cert.Gnn.pair x2 b) (B b) (fun o e => x5 (ix2 o e)) (fun e => x6 (ix1 e)) (Cert.Gnn.step (Cert.Gnn.pair x2 b) (B b) (fun o e => x5 (ix2 o e)) (fun e => x6 (ix1 e)) (Cert.Gnn.step (Cert.Gnn.pair x2 b) (B b) (fun o e => x5 (ix2 o e)) (fun e => x6 (ix1 e)) (fun _ _ => (0 : EReal)))) n o := by
  rw [step_form, val_main_v46_apply, relu3_zero, val_main_v45_apply, hB, val_main_v44_apply, bias43, val_main_v41_apply]
  refine congrArg (fun s : EReal => max (B b n o + (s + x6 (ix1 o))) 0) (Finset.sum_congr rfl fun e _ => ?_)
  rw [lidx41_at, ridx41_at, val_main_v40_apply]
  refine congrArg (fun s : EReal => s * x5 (ix2 o e)) (Finset.sum_congr rfl fun j _ => ?_)
  rw [lidx40_at, ridx40_at, step2_at x0 x1 x2 x3 x4 x5 x6 x7 x8 x9 x10 B hB]

/-- The reference's embedding at `(b, n, o)` is the specification's embedding of graph `b`: three updates from zero over
    the stage value `B`, along graph `b`'s adjacency, with the matrix `x5` (applied transposed) and the bias `x6`. -/
theorem ref_emb_of (x0 : (⟨S8x1024, .f32⟩ : BufTy).Contents (Elt Ideal)) (x1 x2 : (⟨S8x1024x1024, .f32⟩ : BufTy).Contents (Elt Ideal)) (x3 : (⟨S10x1, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal))
    (B : Fin 8 → Fin 1024 → Fin 10 → EReal)
    (hB : ∀ b n o, val_main_v24 (F := Ideal) x0 x1 x3 x4 x7 x8 x9 x10 (ix3 b n o) = B b n o)
    (b : Fin 8) (n : Fin 1024) (o : Fin 10) :
    val_main_v46 (F := Ideal) x0 x1 x2 x3 x4 x5 x6 x7 x8 x9 x10 (ix3 b n o)
      = Cert.Gnn.emb (Cert.Gnn.pair x2 b) (B b) (fun o e => x5 (ix2 o e)) (fun e => x6 (ix1 e)) n o :=
  step3_at x0 x1 x2 x3 x4 x5 x6 x7 x8 x9 x10 B hB b n o

end Cert.ReferenceIdeal.RefStep

end
-- ==== Proof.RefQ.lean ====
/-
  The readout of the reference program, read one element at a time over the extended reals.

  Given the embedding array of the batch — 8 graphs, 1024 nodes, 10 channels, known here only through its value
  `E b n o` at every index — the reference computes one number per node:

  * the embedding summed over the nodes of a graph (a sum that starts from the constant zero, so `0 + ∑` is the
    plain sum), contracted with the rows of a 10×10 matrix and shifted by a bias: the graph's pooled row
    `Cert.Gnn.pool`;
  * each node's own channels contracted with the rows of a second 10×10 matrix and shifted by a second bias:
    `Cert.Gnn.lin`;
  * the pooled row repeated at every node and joined with the node's own image along the channel axis into 20
    channels. An element of the joined array at channel `k` comes from the first piece at `k` when `k < 10` and from
    the second piece at `k - 10` otherwise, which is the case split in `Cert.Gnn.cat`;
  * the 20 channels contracted with one row of weights, plus a scalar bias: `Cert.Gnn.q`; a final reshape drops
    the unit axis, and the element `(b, n)` of the result is the element `(b, n, 0)` before it because
    `(b * 1024 + n) / 1024 = b` and `(b * 1024 + n) % 1024 = n`.

  Each stage is read at an index built from its coordinates; every step is an unfolding, a reindexing of a finite
  sum term by term, or `0 + x = x`. Nothing is distributed or cancelled, so every equation holds at the
  infinities as well.
-/
import proofs.«129381_j87771951661882_1_alg».proof.Proof.Gen.ReferenceIdeal.Read
import proofs.«129381_j87771951661882_1_alg».proof.Proof.Spec
import Idealize.ShloMosaic.Lib.Pipeline.Value
import Idealize.ShloMosaic.Lib.ValueIdx
import Idealize.ShloMosaic.PureOps.Ideal.Laws

noncomputable section

namespace Cert.ReferenceIdeal.RefQ

open Idealize.ShloMosaic Idealize.ShloMosaic.ValueIdx Cert.ReferenceIdeal Cert.ReferenceIdeal.Read

section stages

variable (x0 : (⟨S8x1024, .f32⟩ : BufTy).Contents (Elt Ideal)) (x1 x2 : (⟨S8x1024x1024, .f32⟩ : BufTy).Contents (Elt Ideal))
  (x3 : (⟨S10x1, .f32⟩ : BufTy).Contents (Elt Ideal)) (x4 : (⟨S10, .f32⟩ : BufTy).Contents (Elt Ideal))
  (x5 : (⟨S10x10, .f32⟩ : BufTy).Contents (Elt Ideal)) (x6 : (⟨S10, .f32⟩ : BufTy).Contents (Elt Ideal))
  (x7 : (⟨S10x10, .f32⟩ : BufTy).Contents (Elt Ideal)) (x8 : (⟨S10, .f32⟩ : BufTy).Contents (Elt Ideal))
  (x9 : (⟨S10x1, .f32⟩ : BufTy).Contents (Elt Ideal)) (x10 : (⟨S10, .f32⟩ : BufTy).Contents (Elt Ideal))
  (x11 : (⟨S1x20, .f32⟩ : BufTy).Contents (Elt Ideal)) (x12 : (⟨S1, .f32⟩ : BufTy).Contents (Elt Ideal))
  (x13 : (⟨S10x10, .f32⟩ : BufTy).Contents (Elt Ideal)) (x14 : (⟨S10, .f32⟩ : BufTy).Contents (Elt Ideal))
  (x15 : (⟨S10x10, .f32⟩ : BufTy).Contents (Elt Ideal)) (x16 : (⟨S10, .f32⟩ : BufTy).Contents (Elt Ideal))

/-! ### The three bias rows, each a parameter vector broadcast over the other axes -/

/-- The pooled map's bias, broadcast over the graphs. -/
theorem v50_at (b : Fin 8) (o : Fin 10) : val_main_v50 (F := Ideal) x14 (ix2 b o) = x14 (ix1 o) := by
  refine (val_main_v50_apply x14 _).trans ((val_main_v49_apply x14 _).trans (congrArg x14 ?_))
  exact funext fun a => Fin.ext (by match a with | ⟨0, _⟩ => rfl)

/-- The per-node map's bias, broadcast over graphs and nodes. -/
theorem v54_at (b : Fin 8) (n : Fin 1024) (o : Fin 10) :
    val_main_v54 (F := Ideal) x16 (ix3 b n o) = x16 (ix1 o) := by
  refine (val_main_v54_apply x16 _).trans ((val_main_v53_apply x16 _).trans (congrArg x16 ?_))
  exact funext fun a => Fin.ext (by match a with | ⟨0, _⟩ => rfl)

/-- The readout's bias, broadcast over graphs and nodes. -/
theorem v61_at (b : Fin 8) (n : Fin 1024) :
    val_main_v61 (F := Ideal) x12 (ix3 b n (0 : Fin 1)) = x12 (ix1 0) := by
  refine (val_main_v61_apply x12 _).trans ((val_main_v60_apply x12 _).trans (congrArg x12 ?_))
  exact funext fun a => Fin.ext (by match a with | ⟨0, _⟩ => rfl)

/-- The constant the node sum starts from is zero. -/
theorem cst_zero (i : S_.Idx) : val_main_cst_1 (F := Ideal) i = (0 : EReal) :=
  (val_main_cst_1_apply i).trans Ideal.ofBits_zero_f32

variable (E : Fin 8 → Fin 1024 → Fin 10 → EReal)
  (hE : ∀ b n o, val_main_v46 (F := Ideal) x0 x1 x2 x3 x4 x5 x6 x7 x8 x9 x10 (ix3 b n o) = E b n o)

include hE

/-- The embedding summed over the nodes: the sum starts from zero. -/
theorem v47_at (b : Fin 8) (e : Fin 10) :
    val_main_v47 (F := Ideal) x0 x1 x2 x3 x4 x5 x6 x7 x8 x9 x10 (ix2 b e) = ∑ m : Fin 1024, E b m e := by
  refine (val_main_v47_apply x0 x1 x2 x3 x4 x5 x6 x7 x8 x9 x10 (ix2 b e)).trans ?_
  rw [cst_zero, zero_add]
  refine Finset.sum_congr rfl fun m _ => ?_
  refine (congrArg (val_main_v46 (F := Ideal) x0 x1 x2 x3 x4 x5 x6 x7 x8 x9 x10) ?_).trans (hE b m e)
  exact funext fun a => Fin.ext (by match a with | ⟨0, _⟩ => rfl | ⟨1, _⟩ => rfl | ⟨2, _⟩ => rfl)

/-- The summed embedding against row `o` of the pooled map's matrix. -/
theorem v48_at (b : Fin 8) (o : Fin 10) :
    val_main_v48 (F := Ideal) x0 x1 x2 x3 x4 x5 x6 x7 x8 x9 x10 x13 (ix2 b o)
      = ∑ e : Fin 10, (∑ m : Fin 1024, E b m e) * x13 (ix2 o e) := by
  refine (val_main_v48_apply x0 x1 x2 x3 x4 x5 x6 x7 x8 x9 x10 x13 (ix2 b o)).trans ?_
  refine Finset.sum_congr rfl fun e _ => ?_
  have hl : lidx_main_v48 (ix2 b o) e = ix2 b e :=
    funext fun a => Fin.ext (by match a with | ⟨0, _⟩ => rfl | ⟨1, _⟩ => rfl)
  have hr : ridx_main_v48 (ix2 b o) e = ix2 o e :=
    funext fun a => Fin.ext (by match a with | ⟨0, _⟩ => rfl | ⟨1, _⟩ => rfl)
  rw [hl, hr, v47_at x0 x1 x2 x3 x4 x5 x6 x7 x8 x9 x10 E hE b e]

/-- The pooled row of graph `b`. -/
theorem v51_at (b : Fin 8) (o : Fin 10) :
    val_main_v51 (F := Ideal) x0 x1 x2 x3 x4 x5 x6 x7 x8 x9 x10 x13 x14 (ix2 b o)
      = Cert.Gnn.pool (E b) (fun o e => x13 (ix2 o e)) (fun e => x14 (ix1 e)) o := by
  refine (val_main_v51_apply x0 x1 x2 x3 x4 x5 x6 x7 x8 x9 x10 x13 x14 (ix2 b o)).trans ?_
  rw [Ideal.addf_def, v48_at x0 x1 x2 x3 x4 x5 x6 x7 x8 x9 x10 x13 E hE b o, v50_at x14 b o]
  rfl

/-- Node `n`'s channels against row `o` of the per-node map's matrix. -/
theorem v52_at (b : Fin 8) (n : Fin 1024) (o : Fin 10) :
    val_main_v52 (F := Ideal) x0 x1 x2 x3 x4 x5 x6 x7 x8 x9 x10 x15 (ix3 b n o) = ∑ e : Fin 10, E b n e * x15 (ix2 o e) := by
  refine (val_main_v52_apply x0 x1 x2 x3 x4 x5 x6 x7 x8 x9 x10 x15 (ix3 b n o)).trans ?_
  refine Finset.sum_congr rfl fun e _ => ?_
  have hl : lidx_main_v52 (ix3 b n o) e = ix3 b n e :=
    funext fun a => Fin.ext (by match a with | ⟨0, _⟩ => rfl | ⟨1, _⟩ => rfl | ⟨2, _⟩ => rfl)
  have hr : ridx_main_v52 (ix3 b n o) e = ix2 o e :=
    funext fun a => Fin.ext (by match a with | ⟨0, _⟩ => rfl | ⟨1, _⟩ => rfl)
  rw [hl, hr, hE b n e]

/-- Node `n`'s own affine image. -/
theorem v55_at (b : Fin 8) (n : Fin 1024) (o : Fin 10) :
    val_main_v55 (F := Ideal) x0 x1 x2 x3 x4 x5 x6 x7 x8 x9 x10 x15 x16 (ix3 b n o)
      = Cert.Gnn.lin (E b) (fun o e => x15 (ix2 o e)) (fun e => x16 (ix1 e)) n o := by
  refine (val_main_v55_apply x0 x1 x2 x3 x4 x5 x6 x7 x8 x9 x10 x15 x16 (ix3 b n o)).trans ?_
  rw [Ideal.addf_def, v52_at x0 x1 x2 x3 x4 x5 x6 x7 x8 x9 x10 x15 E hE b n o, v54_at x16 b n o]
  rfl

/-- The pooled row repeated at every node. -/
theorem v57_at (b : Fin 8) (n : Fin 1024) (o : Fin 10) :
    val_main_v57 (F := Ideal) x0 x1 x2 x3 x4 x5 x6 x7 x8 x9 x10 x13 x14 (ix3 b n o)
      = Cert.Gnn.pool (E b) (fun o e => x13 (ix2 o e)) (fun e => x14 (ix1 e)) o := by
  refine (val_main_v57_apply x0 x1 x2 x3 x4 x5 x6 x7 x8 x9 x10 x13 x14 (ix3 b n o)).trans ?_
  refine (val_main_v56_apply x0 x1 x2 x3 x4 x5 x6 x7 x8 x9 x10 x13 x14 _).trans ?_
  refine (congrArg (val_main_v51 (F := Ideal) x0 x1 x2 x3 x4 x5 x6 x7 x8 x9 x10 x13 x14) ?_).trans (v51_at x0 x1 x2 x3 x4 x5 x6 x7 x8 x9 x10 x13 x14 E hE b o)
  exact funext fun a => Fin.ext (by match a with | ⟨0, _⟩ => rfl | ⟨1, _⟩ => rfl)

/-- The 20 readout channels: the joined array read at a channel below 10 is the pooled row, at a channel from 10
    on it is the node's own affine image at that channel less 10. -/
theorem v58_at (b : Fin 8) (n : Fin 1024) (k : Fin 20) :
    val_main_v58 (F := Ideal) x0 x1 x2 x3 x4 x5 x6 x7 x8 x9 x10 x13 x14 x15 x16 (ix3 b n k)
      = Cert.Gnn.cat (E b) (fun o e => x13 (ix2 o e)) (fun e => x14 (ix1 e)) (fun o e => x15 (ix2 o e))
          (fun e => x16 (ix1 e)) n k := by
  unfold val_main_v58 Cert.Gnn.cat
  by_cases h : k.val < 10
  · rw [dif_pos h]
    refine (concatenate_pair_apply_left (t := S8x1024x20) (s₁ := S8x1024x10) (s₂ := S8x1024x10) 2
      (val_main_v57 (F := Ideal) x0 x1 x2 x3 x4 x5 x6 x7 x8 x9 x10 x13 x14) (val_main_v55 (F := Ideal) x0 x1 x2 x3 x4 x5 x6 x7 x8 x9 x10 x15 x16)
      Facts₀.concatenates_S8x1024x10_S8x1024x10_S8x1024x20_d2 (ix3 b n k) rfl (ix3 b n ⟨k.val, h⟩)
      (fun a => by match a with | ⟨0, _⟩ => rfl | ⟨1, _⟩ => rfl | ⟨2, _⟩ => rfl)).trans ?_
    exact v57_at x0 x1 x2 x3 x4 x5 x6 x7 x8 x9 x10 x13 x14 E hE b n ⟨k.val, h⟩
  · rw [dif_neg h]
    refine (concatenate_pair_apply_right (t := S8x1024x20) (s₁ := S8x1024x10) (s₂ := S8x1024x10) 2
      (val_main_v57 (F := Ideal) x0 x1 x2 x3 x4 x5 x6 x7 x8 x9 x10 x13 x14) (val_main_v55 (F := Ideal) x0 x1 x2 x3 x4 x5 x6 x7 x8 x9 x10 x15 x16)
      Facts₀.concatenates_S8x1024x10_S8x1024x10_S8x1024x20_d2 (ix3 b n k) rfl rfl (ix3 b n ⟨k.val - 10, by omega⟩)
      (fun a => by match a with | ⟨0, _⟩ => exact fun _ => rfl | ⟨1, _⟩ => exact fun _ => rfl | ⟨2, _⟩ => exact fun hne => absurd rfl hne)
      (by show k.val - 10 + 10 = k.val; omega)).trans ?_
    exact v55_at x0 x1 x2 x3 x4 x5 x6 x7 x8 x9 x10 x15 x16 E hE b n ⟨k.val - 10, by omega⟩

/-- The 20 channels against the readout row. -/
theorem v59_at (b : Fin 8) (n : Fin 1024) :
    val_main_v59 (F := Ideal) x0 x1 x2 x3 x4 x5 x6 x7 x8 x9 x10 x11 x13 x14 x15 x16 (ix3 b n (0 : Fin 1))
      = ∑ k : Fin 20, Cert.Gnn.cat (E b) (fun o e => x13 (ix2 o e)) (fun e => x14 (ix1 e))
          (fun o e => x15 (ix2 o e)) (fun e => x16 (ix1 e)) n k * x11 (ix2 0 k) := by
  refine (val_main_v59_apply x0 x1 x2 x3 x4 x5 x6 x7 x8 x9 x10 x11 x13 x14 x15 x16 (ix3 b n (0 : Fin 1))).trans ?_
  refine Finset.sum_congr rfl fun k _ => ?_
  have hl : lidx_main_v59 (ix3 b n (0 : Fin 1)) k = ix3 b n k :=
    funext fun a => Fin.ext (by match a with | ⟨0, _⟩ => rfl | ⟨1, _⟩ => rfl | ⟨2, _⟩ => rfl)
  have hr : ridx_main_v59 (ix3 b n (0 : Fin 1)) k = ix2 (0 : Fin 1) k :=
    funext fun a => Fin.ext (by match a with | ⟨0, _⟩ => rfl | ⟨1, _⟩ => rfl)
  rw [hl, hr, v58_at x0 x1 x2 x3 x4 x5 x6 x7 x8 x9 x10 x13 x14 x15 x16 E hE b n k]

/-- The readout value with its bias, still carrying a unit axis. -/
theorem v62_at (b : Fin 8) (n : Fin 1024) :
    val_main_v62 (F := Ideal) x0 x1 x2 x3 x4 x5 x6 x7 x8 x9 x10 x11 x12 x13 x14 x15 x16 (ix3 b n (0 : Fin 1))
      = Cert.Gnn.q (E b) (fun o e => x13 (ix2 o e)) (fun e => x14 (ix1 e)) (fun o e => x15 (ix2 o e))
          (fun e => x16 (ix1 e)) (fun k => x11 (ix2 0 k)) (x12 (ix1 0)) n := by
  refine (val_main_v62_apply x0 x1 x2 x3 x4 x5 x6 x7 x8 x9 x10 x11 x12 x13 x14 x15 x16 (ix3 b n (0 : Fin 1))).trans ?_
  rw [Ideal.addf_def, v59_at x0 x1 x2 x3 x4 x5 x6 x7 x8 x9 x10 x11 x13 x14 x15 x16 E hE b n, v61_at x12 b n]
  rfl

end stages

/-- The reference's second result at graph `b`, node `n` is the readout `q` of graph `b`'s embedding. -/
theorem ref_q_of (x0 : (⟨S8x1024, .f32⟩ : BufTy).Contents (Elt Ideal)) (x1 x2 : (⟨S8x1024x1024, .f32⟩ : BufTy).Contents (Elt Ideal)) (x3 : (⟨S10x1, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal)) (x11 : (⟨S1x20, .f32⟩ : BufTy).Contents (Elt Ideal)) (x12 : (⟨S1, .f32⟩ : BufTy).Contents (Elt Ideal)) (x13 : (⟨S10x10, .f32⟩ : BufTy).Contents (Elt Ideal)) (x14 : (⟨S10, .f32⟩ : BufTy).Contents (Elt Ideal)) (x15 : (⟨S10x10, .f32⟩ : BufTy).Contents (Elt Ideal)) (x16 : (⟨S10, .f32⟩ : BufTy).Contents (Elt Ideal))
    (E : Fin 8 → Fin 1024 → Fin 10 → EReal)
    (hE : ∀ b n o, val_main_v46 (F := Ideal) x0 x1 x2 x3 x4 x5 x6 x7 x8 x9 x10 (ix3 b n o) = E b n o)
    (b : Fin 8) (n : Fin 1024) :
    val_main_v63 (F := Ideal) x0 x1 x2 x3 x4 x5 x6 x7 x8 x9 x10 x11 x12 x13 x14 x15 x16 (ix2 b n)
      = Cert.Gnn.q (E b) (fun o e => x13 (ix2 o e)) (fun e => x14 (ix1 e)) (fun o e => x15 (ix2 o e)) (fun e => x16 (ix1 e))
          (fun k => x11 (ix2 0 k)) (x12 (ix1 0)) n := by
  refine (val_main_v63_apply x0 x1 x2 x3 x4 x5 x6 x7 x8 x9 x10 x11 x12 x13 x14 x15 x16 (ix2 b n)).trans ?_
  refine (congrArg (val_main_v62 (F := Ideal) x0 x1 x2 x3 x4 x5 x6 x7 x8 x9 x10 x11 x12 x13 x14 x15 x16) ?_).trans
    (v62_at x0 x1 x2 x3 x4 x5 x6 x7 x8 x9 x10 x11 x12 x13 x14 x15 x16 E hE b n)
  have hb : b.val < 8 := b.isLt
  have hn : n.val < 1024 := n.isLt
  exact funext fun a => Fin.ext (by
    match a with
    | ⟨0, _⟩ => show (b.val * 1024 + n.val) / 1024 = b.val; omega
    | ⟨1, _⟩ => show (b.val * 1024 + n.val) / 1 % 1024 = n.val; omega
    | ⟨2, _⟩ => rfl)

end Cert.ReferenceIdeal.RefQ

end
-- ==== Proof.RefValue.lean ====
/-
  The reference's two results as whole arrays.

  Read at an index `(b, n, o)`, the reference's last embedding stage is the specification's embedding of graph `b`
  (the embedding-independent part first, then three updates from zero), and its readout stage at `(b, n)` is the
  specification's readout of that embedding. Every index of `[8, 1024, 10]` and of `[8, 1024]` is of this form, so the
  two stages are the specification's embedding array and readout array.
-/
import proofs.«129381_j87771951661882_1_alg».proof.Proof.Gen.ReferenceIdeal.Read
import proofs.«129381_j87771951661882_1_alg».proof.Proof.Spec
import proofs.«129381_j87771951661882_1_alg».proof.Proof.RefBase
import proofs.«129381_j87771951661882_1_alg».proof.Proof.RefStep
import proofs.«129381_j87771951661882_1_alg».proof.Proof.RefQ
import Idealize.ShloMosaic.Lib.ValueIdx

noncomputable section

namespace Cert.ReferenceIdeal.RefValue

open Idealize.ShloMosaic Idealize.ShloMosaic.ValueIdx Cert.ReferenceIdeal Cert.ReferenceIdeal.Read

/-- The embedding stage at `(b, n, o)` is the embedding of graph `b`. -/
theorem emb_at (x0 : (⟨S8x1024, .f32⟩ : BufTy).Contents (Elt Ideal)) (x1 x2 : (⟨S8x1024x1024, .f32⟩ : BufTy).Contents (Elt Ideal)) (x3 : (⟨S10x1, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal)) (b : Fin 8) (n : Fin 1024) (o : Fin 10) :
    val_main_v46 (F := Ideal) x0 x1 x2 x3 x4 x5 x6 x7 x8 x9 x10 (ix3 b n o)
      = Cert.Gnn.embOf (Cert.Gnn.feat x0 b) (Cert.Gnn.pair x1 b) (Cert.Gnn.pair x2 b) x3 x4 x5 x6 x7 x8 x9 x10 n o :=
  Cert.ReferenceIdeal.RefStep.ref_emb_of x0 x1 x2 x3 x4 x5 x6 x7 x8 x9 x10
    (fun b => Cert.Gnn.base (Cert.Gnn.feat x0 b) (Cert.Gnn.pair x1 b) (fun e => x3 (ix2 e 0)) (fun e => x4 (ix1 e))
      (fun e => x9 (ix2 e 0)) (fun e => x10 (ix1 e)) (fun o e => x7 (ix2 o e)) (fun e => x8 (ix1 e)))
    (Cert.ReferenceIdeal.RefBase.ref_base x0 x1 x3 x4 x7 x8 x9 x10) b n o

/-- The embedding stage is the embedding array. -/
theorem emb_eq (x0 : (⟨S8x1024, .f32⟩ : BufTy).Contents (Elt Ideal)) (x1 x2 : (⟨S8x1024x1024, .f32⟩ : BufTy).Contents (Elt Ideal)) (x3 : (⟨S10x1, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal)) :
    val_main_v46 (F := Ideal) x0 x1 x2 x3 x4 x5 x6 x7 x8 x9 x10 = Cert.Gnn.embArr x0 x1 x2 x3 x4 x5 x6 x7 x8 x9 x10 := by
  funext i
  obtain ⟨b, n, o, rfl⟩ : ∃ (b : Fin 8) (n : Fin 1024) (o : Fin 10), i = ix3 b n o := ⟨i 0, i 1, i 2, eq_ix3 i⟩
  exact emb_at x0 x1 x2 x3 x4 x5 x6 x7 x8 x9 x10 b n o

/-- The readout stage is the readout array. -/
theorem q_eq (x0 : (⟨S8x1024, .f32⟩ : BufTy).Contents (Elt Ideal)) (x1 x2 : (⟨S8x1024x1024, .f32⟩ : BufTy).Contents (Elt Ideal)) (x3 : (⟨S10x1, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x1, .f32⟩ : BufTy).Contents (Elt Ideal)) (x10 : (⟨S10, .f32⟩ : BufTy).Contents (Elt Ideal)) (x11 : (⟨S1x20, .f32⟩ : BufTy).Contents (Elt Ideal)) (x12 : (⟨S1, .f32⟩ : BufTy).Contents (Elt Ideal)) (x13 : (⟨S10x10, .f32⟩ : BufTy).Contents (Elt Ideal)) (x14 : (⟨S10, .f32⟩ : BufTy).Contents (Elt Ideal)) (x15 : (⟨S10x10, .f32⟩ : BufTy).Contents (Elt Ideal)) (x16 : (⟨S10, .f32⟩ : BufTy).Contents (Elt Ideal)) :
    val_main_v63 (F := Ideal) x0 x1 x2 x3 x4 x5 x6 x7 x8 x9 x10 x11 x12 x13 x14 x15 x16
      = Cert.Gnn.qArr x0 x1 x2 x3 x4 x5 x6 x7 x8 x9 x10 x11 x12 x13 x14 x15 x16 := by
  funext i
  obtain ⟨b, n, rfl⟩ : ∃ (b : Fin 8) (n : Fin 1024), i = ix2 b n := ⟨i 0, i 1, eq_ix2 i⟩
  exact Cert.ReferenceIdeal.RefQ.ref_q_of x0 x1 x2 x3 x4 x5 x6 x7 x8 x9 x10 x11 x12 x13 x14 x15 x16
    (fun b => Cert.Gnn.embOf (Cert.Gnn.feat x0 b) (Cert.Gnn.pair x1 b) (Cert.Gnn.pair x2 b) x3 x4 x5 x6 x7 x8 x9 x10)
    (emb_at x0 x1 x2 x3 x4 x5 x6 x7 x8 x9 x10) b n

end Cert.ReferenceIdeal.RefValue

end
-- ==== Proof.lean ====
/-
  Two programs for one graph network, equal over the extended reals.

  Both programs take a batch of 8 graphs of 1024 nodes (a feature per node, a weight and an adjacency entry per
  ordered pair of nodes) and fourteen small parameter arrays, and return a 10-channel embedding of every node
  and one readout value per node. The kernel does a graph per grid point: the feature's affine image; ten
  rectified affine images of the weight matrix, each summed over the source nodes, joined into ten channels and
  mapped affinely; three updates of the embedding from zero, each a propagation along the adjacency followed by an
  affine map and a rectification; then a readout from the embedding's sum over the nodes and each node's own
  affine image, joined into 20 channels and contracted with one row. The reference computes the same network on
  whole arrays of the batch.

  Read exactly, both are ONE function of the arguments, index by index (Proof/Spec.lean): the products are the same
  products, every sum is over the same index set with the same summands, and the additions are grouped alike. A
  change of float format is the identity, a matrix product into a zero accumulator and the host's contraction are
  the same sum, and the host's sum from the initial value zero is the kernel's sum. No law that fails at an
  infinity is used, so the inputs' finiteness is never opened.

  The kernel's side is read off its frame run (Proof/KRun.lean over Proof/KOut.lean and Proof/KBlocks.lean), the
  reference's off its run (Proof/RefValue.lean); the idealized kernel is the kernel's own text read exactly, so
  nothing is owed for the idealization.
-/
import proofs.«129381_j87771951661882_1_alg».proof.Defs
import proofs.«129381_j87771951661882_1_alg».proof.Proof.Gen.Kernel
import proofs.«129381_j87771951661882_1_alg».proof.Proof.Gen.Kernel.Frame
import proofs.«129381_j87771951661882_1_alg».proof.Proof.Gen.KernelIdeal
import proofs.«129381_j87771951661882_1_alg».proof.Proof.Gen.KernelIdeal.Frame
import proofs.«129381_j87771951661882_1_alg».proof.Proof.Gen.ReferenceIdeal
import proofs.«129381_j87771951661882_1_alg».proof.Proof.Gen.ReferenceIdeal.Run
import proofs.«129381_j87771951661882_1_alg».proof.Proof.Gen.ReferenceIdeal.Read
import proofs.«129381_j87771951661882_1_alg».proof.Proof.Gen.Pre_finite_inputs
import proofs.«129381_j87771951661882_1_alg».proof.Proof.KRun
import proofs.«129381_j87771951661882_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does the kernel read exactly. -/
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The exact reading rewrote no operation of the kernel. -/
theorem preserves : Cert.preserves_Kernel_KernelIdeal := trivial

/-- From memories that agree on the arguments both programs end with the readout array and the embedding array of
    the specification, of those arguments. -/
theorem algebraic : Cert.algebraic_KernelIdeal_ReferenceIdeal := by
  intro m ρ m' ρ' _ hagree
  refine ⟨fun c => Cert.KernelIdeal.RunVal.qA m c, fun c => Cert.KernelIdeal.RunVal.embA m c,
    Cert.KernelIdeal.RunVal.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6, e7, e8, e9, e10, e11, e12, e13, e14, e15, e16⟩ := hagree c
    rw [(h c).1, Cert.ReferenceIdeal.Read.val_main_v63_eq, Cert.ReferenceIdeal.RefValue.q_eq,
      e0, e1, e2, e3, e4, e5, e6, e7, e8, e9, e10, e11, e12, e13, e14, e15, e16]
  · obtain ⟨e0, e1, e2, e3, e4, e5, e6, e7, e8, e9, e10, e11, e12, e13, e14, e15, e16⟩ := hagree c
    rw [(h c).2.1, Cert.ReferenceIdeal.Read.val_main_v46_eq, Cert.ReferenceIdeal.RefValue.emb_eq,
      e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
